-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x8x64 : Shape := ⟨4, ![2, 16384, 8, 64]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel

variable [Facts]

def fn {F : FTy → Type} [FloatOps F] (main_arg0 : FVec F S2x16384x8x64 .f32) (main_arg1 : FVec F S2x16384x8x64 .f32) (main_arg2 : FVec F S2x16384x8x64 .f32) : IVec S_ 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_c : IVec S_ 1 := constantI S_ 1 1#1
  let main_v3 : IVec S_ 1 := (fun x v => Host.reduce IntOp.andi x v reducesTo_S2x16384x8x64_S_d0_1_2_3 h_S_) main_v2 main_c
  let main_v4 : FVec F S2x16384x8x64 .f32 := Host.absf main_arg1
  let main_cst_0 : FVec F S_ .f32 := constant S_ .f32 0x7F800000#32
  let main_v5 : FVec F S2x16384x8x64 .f32 := broadcastInDim S2x16384x8x64 ![] bcast_S_S2x16384x8x64 main_cst_0
  let main_v6 : IVec S2x16384x8x64 1 := cmpf .olt main_v4 main_v5
  let main_c_1 : IVec S_ 1 := constantI S_ 1 1#1
  let main_v7 : IVec S_ 1 := (fun x v => Host.reduce IntOp.andi x v reducesTo_S2x16384x8x64_S_d0_1_2_3 h_S_) main_v6 main_c_1
  let main_v8 : IVec S_ 1 := andi main_v3 main_v7
  let main_v9 : FVec F S2x16384x8x64 .f32 := Host.absf main_arg2
  let main_cst_2 : FVec F S_ .f32 := constant S_ .f32 0x7F800000#32
  let main_v10 : FVec F S2x16384x8x64 .f32 := broadcastInDim S2x16384x8x64 ![] bcast_S_S2x16384x8x64 main_cst_2
  let main_v11 : IVec S2x16384x8x64 1 := cmpf .olt main_v9 main_v10
  let main_c_3 : IVec S_ 1 := constantI S_ 1 1#1
  let main_v12 : IVec S_ 1 := (fun x v => Host.reduce IntOp.andi x v reducesTo_S2x16384x8x64_S_d0_1_2_3 h_S_) main_v11 main_c_3
  let main_v13 : IVec S_ 1 := andi main_v8 main_v12
  main_v13
-- ==== Kernel.lean ====
abbrev S2x16384x8x64 : Shape := ⟨4, ![2, 16384, 8, 64]⟩
abbrev S2x2048x8x8x64 : Shape := ⟨5, ![2, 2048, 8, 8, 64]⟩
abbrev S16x64x64 : Shape := ⟨3, ![16, 64, 64]⟩
abbrev S1x256x8x8x64 : Shape := ⟨5, ![1, 256, 8, 8, 64]⟩
abbrev S8x64x64 : Shape := ⟨3, ![8, 64, 64]⟩
abbrev S1x256x1x8x64 : Shape := ⟨5, ![1, 256, 1, 8, 64]⟩
abbrev S256x8x64 : Shape := ⟨3, ![256, 8, 64]⟩
abbrev S2048x64 : Shape := ⟨2, ![2048, 64]⟩
abbrev S64x64 : Shape := ⟨2, ![64, 64]⟩
abbrev S1x64x64 : Shape := ⟨3, ![1, 64, 64]⟩
abbrev S8x64 : Shape := ⟨2, ![8, 64]⟩
abbrev S8x64x1 : Shape := ⟨3, ![8, 64, 1]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x64, .f32⟩
  | .hbm, ⟨2, _⟩ => ⟨S2x16384x8x64, .f32⟩
  | .hbm, ⟨3, _⟩ => ⟨S2x2048x8x8x64, .f32⟩
  | .hbm, ⟨4, _⟩ => ⟨S2x2048x8x8x64, .f32⟩
  | .hbm, ⟨5, _⟩ => ⟨S16x64x64, .f32⟩
  | .local _ .vmem, ⟨0, _⟩ => ⟨S1x256x8x8x64, .f32⟩
  | .local _ .vmem, ⟨1, _⟩ => ⟨S1x256x8x8x64, .f32⟩
  | .local _ .vmem, ⟨2, _⟩ => ⟨S1x256x8x8x64, .f32⟩
  | .local _ .vmem, ⟨3, _⟩ => ⟨S1x256x8x8x64, .f32⟩
  | .local _ .vmem, ⟨4, _⟩ => ⟨S8x64x64, .f32⟩
  | .local _ .vmem, ⟨5, _⟩ => ⟨S8x64x64, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x16384x8x64_S2x2048x8x8x64 : S2x16384x8x64.ShapeCasts S2x2048x8x8x64
  inb_S8x64x64_S8x64x64_0_0_0 : ∀ a, (![0, 0, 0] : Fin 3 → Nat) a + S8x64x64.size a ≤ S8x64x64.size a
  h_S8x64x64 : 0 < S8x64x64.numel
  inb_S1x256x8x8x64_S1x256x1x8x64_0_0_0_0_0 : ∀ a, (![0, 0, 0, 0, 0] : Fin 5 → Nat) a + S1x256x1x8x64.size a ≤ S1x256x8x8x64.size a
  h_S1x256x1x8x64 : 0 < S1x256x1x8x64.numel
  shapeCasts_S1x256x1x8x64_S256x8x64 : S1x256x1x8x64.ShapeCasts S256x8x64
  shapeCasts_S256x8x64_S2048x64 : S256x8x64.ShapeCasts S2048x64
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  shapeCasts_S64x64_S1x64x64 : S64x64.ShapeCasts S1x64x64
  inb_S1x256x8x8x64_S1x256x1x8x64_0_0_1_0_0 : ∀ a, (![0, 0, 1, 0, 0] : Fin 5 → Nat) a + S1x256x1x8x64.size a ≤ S1x256x8x8x64.size a
  inb_S8x64x64_S1x64x64_1_0_0 : ∀ a, (![1, 0, 0] : Fin 3 → Nat) a + S1x64x64.size a ≤ S8x64x64.size a
  inb_S1x256x8x8x64_S1x256x1x8x64_0_0_2_0_0 : ∀ a, (![0, 0, 2, 0, 0] : Fin 5 → Nat) a + S1x256x1x8x64.size a ≤ S1x256x8x8x64.size a
  inb_S8x64x64_S1x64x64_2_0_0 : ∀ a, (![2, 0, 0] : Fin 3 → Nat) a + S1x64x64.size a ≤ S8x64x64.size a
  inb_S1x256x8x8x64_S1x256x1x8x64_0_0_3_0_0 : ∀ a, (![0, 0, 3, 0, 0] : Fin 5 → Nat) a + S1x256x1x8x64.size a ≤ S1x256x8x8x64.size a
  inb_S8x64x64_S1x64x64_3_0_0 : ∀ a, (![3, 0, 0] : Fin 3 → Nat) a + S1x64x64.size a ≤ S8x64x64.size a
  inb_S1x256x8x8x64_S1x256x1x8x64_0_0_4_0_0 : ∀ a, (![0, 0, 4, 0, 0] : Fin 5 → Nat) a + S1x256x1x8x64.size a ≤ S1x256x8x8x64.size a
  inb_S8x64x64_S1x64x64_4_0_0 : ∀ a, (![4, 0, 0] : Fin 3 → Nat) a + S1x64x64.size a ≤ S8x64x64.size a
  inb_S1x256x8x8x64_S1x256x1x8x64_0_0_5_0_0 : ∀ a, (![0, 0, 5, 0, 0] : Fin 5 → Nat) a + S1x256x1x8x64.size a ≤ S1x256x8x8x64.size a
  inb_S8x64x64_S1x64x64_5_0_0 : ∀ a, (![5, 0, 0] : Fin 3 → Nat) a + S1x64x64.size a ≤ S8x64x64.size a
  inb_S1x256x8x8x64_S1x256x1x8x64_0_0_6_0_0 : ∀ a, (![0, 0, 6, 0, 0] : Fin 5 → Nat) a + S1x256x1x8x64.size a ≤ S1x256x8x8x64.size a
  inb_S8x64x64_S1x64x64_6_0_0 : ∀ a, (![6, 0, 0] : Fin 3 → Nat) a + S1x64x64.size a ≤ S8x64x64.size a
  inb_S1x256x8x8x64_S1x256x1x8x64_0_0_7_0_0 : ∀ a, (![0, 0, 7, 0, 0] : Fin 5 → Nat) a + S1x256x1x8x64.size a ≤ S1x256x8x8x64.size a
  inb_S8x64x64_S1x64x64_7_0_0 : ∀ a, (![7, 0, 0] : Fin 3 → Nat) a + S1x64x64.size a ≤ S8x64x64.size a
  shapeCasts_S8x64x64_S8x64x64 : S8x64x64.ShapeCasts S8x64x64
  reduces_S8x64x64_S8x64 : S8x64x64.Reduces [2] S8x64
  shapeCasts_S8x64_S8x64x1 : S8x64.ShapeCasts S8x64x1
  broadcasts_S8x64x1_S8x64x64 : S8x64x1.Broadcasts S8x64x64
  dot_S2048x64_S2048x64_S64x64_0_0_1_1_n_n_wf : DotDims.WF S2048x64 S2048x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x8x64.size a ≤ S2x2048x8x8x64.size a
  hwx0_0 : ∀ i : grid0.Coords, EltTy.bits .f32 = 32 ∨ (Rect.block (s := S2x2048x8x8x64) S1x256x8x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x8x8x64.size a ≤ S2x2048x8x8x64.size a
  hwx0_1 : ∀ i : grid0.Coords, EltTy.bits .f32 = 32 ∨ (Rect.block (s := S2x2048x8x8x64) S1x256x8x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S16x64x64.size a
  hwx0_2 : ∀ i : grid0.Coords, EltTy.bits .f32 = 32 ∨ (Rect.block (s := S16x64x64) S8x64x64.size (cc0_transform_2 i) (hinb0_2 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf

abbrev win0_0 : Pipeline.Window sig grid0 :=
  Pipeline.Window.ofSpec (Memref.whole main_v0) S1x256x8x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x8x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16384x8x64 : Shape := ⟨4, ![2, 16384, 8, 64]⟩
abbrev S2x8x16384x64 : Shape := ⟨4, ![2, 8, 16384, 64]⟩
abbrev S2x16384x512 : Shape := ⟨3, ![2, 16384, 512]⟩
abbrev S16x16384x64 : Shape := ⟨3, ![16, 16384, 64]⟩
abbrev S16x64x64 : Shape := ⟨3, ![16, 64, 64]⟩
abbrev S_ : Shape := ⟨0, ![]⟩
abbrev S16x64 : Shape := ⟨2, ![16, 64]⟩
abbrev S16x64x1 : Shape := ⟨3, ![16, 64, 1]⟩
abbrev S16x64x16384 : Shape := ⟨3, ![16, 64, 16384]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x64, .f32⟩
  | .hbm, ⟨2, _⟩ => ⟨S2x16384x8x64, .f32⟩
  | .hbm, ⟨3, _⟩ => ⟨S2x8x16384x64, .f32⟩
  | .hbm, ⟨4, _⟩ => ⟨S2x16384x512, .f32⟩
  | .hbm, ⟨5, _⟩ => ⟨S2x16384x8x64, .f32⟩
  | .hbm, ⟨6, _⟩ => ⟨S2x8x16384x64, .f32⟩
  | .hbm, ⟨7, _⟩ => ⟨S16x16384x64, .f32⟩
  | .hbm, ⟨8, _⟩ => ⟨S2x8x16384x64, .f32⟩
  | .hbm, ⟨9, _⟩ => ⟨S2x16384x512, .f32⟩
  | .hbm, ⟨10, _⟩ => ⟨S2x16384x8x64, .f32⟩
  | .hbm, ⟨11, _⟩ => ⟨S2x8x16384x64, .f32⟩
  | .hbm, ⟨12, _⟩ => ⟨S16x16384x64, .f32⟩
  | .hbm, ⟨13, _⟩ => ⟨S16x64x64, .f32⟩
  | .hbm, ⟨14, _⟩ => ⟨S_, .f32⟩
  | .hbm, ⟨15, _⟩ => ⟨S16x64x64, .f32⟩
  | .hbm, ⟨16, _⟩ => ⟨S16x64x64, .f32⟩
  | .hbm, ⟨17, _⟩ => ⟨S_, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .f32⟩
  | .hbm, ⟨22, _⟩ => ⟨S16x64x1, .f32⟩
  | .hbm, ⟨23, _⟩ => ⟨S16x64x64, .f32⟩
  | .hbm, ⟨24, _⟩ => ⟨S16x64x64, .f32⟩
  | .hbm, ⟨25, _⟩ => ⟨S16x64x64, .f32⟩
  | .hbm, ⟨26, _⟩ => ⟨S_, .f32⟩
  | .hbm, ⟨27, _⟩ => ⟨S16x64, .f32⟩
  | .hbm, ⟨28, _⟩ => ⟨S16x64x1, .f32⟩
  | .hbm, ⟨29, _⟩ => ⟨S16x64x64, .f32⟩
  | .hbm, ⟨30, _⟩ => ⟨S16x64x64, .f32⟩
  | .hbm, ⟨31, _⟩ => ⟨S2x8x16384x64, .f32⟩
  | .hbm, ⟨32, _⟩ => ⟨S2x16384x512, .f32⟩
  | .hbm, ⟨33, _⟩ => ⟨S2x16384x8x64, .f32⟩
  | .hbm, ⟨34, _⟩ => ⟨S2x8x16384x64, .f32⟩
  | .hbm, ⟨35, _⟩ => ⟨S16x16384x64, .f32⟩
  | .hbm, ⟨36, _⟩ => ⟨S16x64x16384, .f32⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  transposes_S2x16384x8x64_S2x8x16384x64_0_2_1_3 : S2x16384x8x64.Transposes [0, 2, 1, 3] S2x8x16384x64
  shapeCasts_S2x8x16384x64_S2x16384x512 : S2x8x16384x64.ShapeCasts S2x16384x512
  shapeCasts_S2x16384x512_S2x16384x8x64 : S2x16384x512.ShapeCasts S2x16384x8x64
  shapeCasts_S2x8x16384x64_S16x16384x64 : S2x8x16384x64.ShapeCasts S16x16384x64
  bcast_S_S16x64x64 : S_.BroadcastsInDim S16x64x64 (![] : Fin 0 → Fin S16x64x64.rank)
  reducesTo_S16x64x64_S16x64_d2 : S16x64x64.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  dot_S16x16384x64_S16x16384x64_S16x64x64_1_1_2_2_0_0_wf : DotDims.WF S16x16384x64 S16x16384x64 S16x64x64 [1] [1] [2] [2] [0] [0]
  dot_S16x64x64_S16x16384x64_S16x64x16384_2_2_1_1_0_0_wf : DotDims.WF S16x64x64 S16x16384x64 S16x64x16384 [2] [2] [1] [1] [0] [0]

variable [Facts₀]

def dot_S16x16384x64_S16x16384x64_S16x64x64_1_1_2_2_0_0 : DotDims S16x16384x64 S16x16384x64 S16x64x64 where
  lhsContracting := [1]
  rhsContracting := [1]
  lhsNonContracting := [2]
  rhsNonContracting := [2]
  lhsBatch := [0]
  rhsBatch := [0]
  wf := dot_S16x16384x64_S16x16384x64_S16x64x64_1_1_2_2_0_0_wf
def dot_S16x64x64_S16x16384x64_S16x64x16384_2_2_1_1_0_0 : DotDims S16x64x64 S16x16384x64 S16x64x16384 where
  lhsContracting := [2]
  rhsContracting := [2]
  lhsNonContracting := [1]
  rhsNonContracting := [1]
  lhsBatch := [0]
  rhsBatch := [0]
  wf := dot_S16x64x64_S16x16384x64_S16x64x16384_2_2_1_1_0_0_wf

class Facts : Prop extends Facts₀ where

variable [Facts]
-- ==== Proof.Spec.lean ====
/-
  The mathematics both programs compute, over the extended reals, with no program in sight.

  The arguments `q`, `k` are arrays indexed (batch, sequence position, head, feature) of extents (2, 16384, 8, 64).
  Write a sequence position as `8·u + v` with `u < 2048`, `v < 8`. For a batch `b` and a residue `v` the SCORE matrix is

      score b v i j = ∑ over u < 2048 and heads h < 8 of  q[b, 8u+v, h, i] · k[b, 8u+v, h, j]        (64 × 64),

  every row of `score · 1/8` is turned into a softmax row (the row's maximum subtracted, exponentials, divided by
  their sum), and the result array, of extents (16, 64, 64), holds at row block `8·b + v` that matrix.
-/
import Idealize.ShloMosaic.PureOps.Ideal
import Idealize.ShloMosaic.Lib.ValueIdx

noncomputable section

open scoped BigOperators

namespace Cert.Attn

open Idealize.ShloMosaic Idealize.ShloMosaic.ValueIdx

/-- An argument array: (batch 2, sequence 16384, head 8, feature 64) of extended reals. -/
abbrev Arg : Type := (⟨4, ![2, 16384, 8, 64]⟩ : Shape).Idx → EReal

/-- The sequence position `8·u + v`. -/
def pos (u : Fin 2048) (v : Fin 8) : Fin 16384 :=
  ⟨u.val * 8 + v.val, by have := u.isLt; have := v.isLt; omega⟩

/-- The score of features `i`, `j` for batch `b` and residue `v`: the sum over the positions `8u + v` and the heads
    of the products of `q`'s feature `i` and `k`'s feature `j`. -/
def score (q k : Arg) (b : Fin 2) (v : Fin 8) (i j : Fin 64) : EReal :=
  ∑ u : Fin 2048, ∑ h : Fin 8, q (ix4 b (pos u v) h i) * k (ix4 b (pos u v) h j)

/-- A row's maximum, folded from `-∞` (the word `0xFF800000`). -/
def rowMax (f : Fin 64 → EReal) : EReal :=
  (Finset.univ : Finset (Fin 64)).fold max (Ideal.ofBits .f32 0xFF800000#32) f

/-- A softmax row: `exp (f j - max f)` over the sum of those exponentials along the row. -/
def soft (f : Fin 64 → EReal) (j : Fin 64) : EReal :=
  Ideal.div (Ideal.exp (f j - rowMax f)) (∑ l : Fin 64, Ideal.exp (f l - rowMax f))

/-- The softmax, along `j`, of the scores scaled by `1/8` (the word `0x3E000000`). -/
def probs (q k : Arg) (b : Fin 2) (v : Fin 8) (i j : Fin 64) : EReal :=
  soft (fun l => score q k b v i l * Ideal.ofBits .f32 0x3E000000#32) j

/-- The result array: row block `8·b + v` holds `probs b v`. -/
def result (q k : Arg) : (⟨3, ![16, 64, 64]⟩ : Shape).Idx → EReal := fun y =>
  probs q k ⟨(y 0).val / 8, by have h : (y 0).val < 16 := (y 0).isLt; omega⟩
    ⟨(y 0).val % 8, Nat.mod_lt _ (by decide)⟩ (y 1) (y 2)

end Cert.Attn

end
-- ==== Proof.Blocks.lean ====
/-
  The blocks the region stages, read in the argument arrays.

  The two host reshapes before the region view the (2, 16384, 8, 64) arguments as (2, 2048, 8, 8, 64): sequence position
  `8·u + v` becomes the pair (u, v). Grid point `t` is batch `t / 8`, chunk `t % 8`: its query and key blocks are positions
  `u = 256·(t % 8) + a`, `a < 256`, every residue, head and feature, of that batch; its output block is rows
  `8·(t / 8) … 8·(t / 8) + 7` of the result.
-/
import proofs.«157863_j53300544143372_2_alg».proof.Proof.Gen.KernelIdeal.Frame
import proofs.«157863_j53300544143372_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps, decided over the grid: batch `t / 8` and chunk `t % 8` for the inputs, row block `t / 8`
    for the output. -/
theorem idx_facts : ∀ t : Fin cfg0.N,
    win0_0.index t (0 : Fin 5) = t.val / 8 ∧ win0_0.index t (1 : Fin 5) = t.val % 8 ∧ win0_0.index t (2 : Fin 5) = 0
    ∧ win0_0.index t (3 : Fin 5) = 0 ∧ win0_0.index t (4 : Fin 5) = 0
    ∧ win0_1.index t (0 : Fin 5) = t.val / 8 ∧ win0_1.index t (1 : Fin 5) = t.val % 8 ∧ win0_1.index t (2 : Fin 5) = 0
    ∧ win0_1.index t (3 : Fin 5) = 0 ∧ win0_1.index t (4 : Fin 5) = 0
    ∧ win0_2.index t (0 : Fin 3) = t.val / 8 ∧ win0_2.index t (1 : Fin 3) = 0 ∧ win0_2.index t (2 : Fin 3) = 0 :=
  (by decide +kernel : ∀ t : Fin grid0.N, _)

/-- The region finds the first reshaped array at the reshape of the first argument, -/
theorem V_v0 (c : Dev nD) : (V m c main_v0 : S2x2048x8x8x64.Idx → EReal)
    = shapeCast S2x2048x8x8x64 (m ((c : Thread nD τ).loc main_arg0)) shapeCasts_S2x16384x8x64_S2x2048x8x8x64 := by
  dsimp only [Gen.V, Gen.hostOps0]
  after_results
  rfl

/-- and the second at the reshape of the second. -/
theorem V_v1 (c : Dev nD) : (V m c main_v1 : S2x2048x8x8x64.Idx → EReal)
    = shapeCast S2x2048x8x8x64 (m ((c : Thread nD τ).loc main_arg1)) shapeCasts_S2x16384x8x64_S2x2048x8x8x64 := by
  dsimp only [Gen.V, Gen.hostOps0]
  after_results
  rfl

/-- The reshape at (b, u, v, h, i) is the argument at (b, 8u + v, h, i). -/
theorem reshape_apply (x : Cert.Attn.Arg) (b : Fin 2) (u : Fin 2048) (v h : Fin 8) (i : Fin 64) :
    shapeCast S2x2048x8x8x64 x shapeCasts_S2x16384x8x64_S2x2048x8x8x64 (ix5 b u v h i) = x (ix4 b (Cert.Attn.pos u v) h i) := by
  refine shapeCast_apply x shapeCasts_S2x16384x8x64_S2x2048x8x8x64 _ _ ?_
  rw [Shape.rowMajor_val_four, Shape.rowMajor_val_five]
  show ((b.val * 16384 + (u.val * 8 + v.val)) * 8 + h.val) * 64 + i.val
    = (((b.val * 2048 + u.val) * 8 + v.val) * 8 + h.val) * 64 + i.val
  omega

/-- Where the query block's own index (0, a, v, h, i) sits in the reshaped array at point `t`. -/
theorem emb0 (t : Fin cfg0.N) (a : Fin 256) (v h : Fin 8) (i : Fin 64) :
    ((cfg0.win 0).blk t).view.emb (ix5 (0 : Fin 1) a v h i)
      = ix5 (⟨t.val / 8, by have := t.isLt; have : cfg0.N = 16 := N_0; omega⟩ : Fin 2)
          (⟨t.val % 8 * 256 + a.val, by have := a.isLt; omega⟩ : Fin 2048) v h i := by
  obtain ⟨e0, e1, e2, e3, e4, -⟩ := idx_facts t
  funext d
  apply Fin.ext
  match d with
  | ⟨0, _⟩ => show win0_0.index t (0 : Fin 5) * 1 + 1 * 0 = t.val / 8; rw [e0]; omega
  | ⟨1, _⟩ => show win0_0.index t (1 : Fin 5) * 256 + 1 * a.val = t.val % 8 * 256 + a.val; rw [e1]; omega
  | ⟨2, _⟩ => show win0_0.index t (2 : Fin 5) * 8 + 1 * v.val = v.val; rw [e2]; omega
  | ⟨3, _⟩ => show win0_0.index t (3 : Fin 5) * 8 + 1 * h.val = h.val; rw [e3]; omega
  | ⟨4, _⟩ => show win0_0.index t (4 : Fin 5) * 64 + 1 * i.val = i.val; rw [e4]; omega

/-- The same for the key block. -/
theorem emb1 (t : Fin cfg0.N) (a : Fin 256) (v h : Fin 8) (i : Fin 64) :
    ((cfg0.win 1).blk t).view.emb (ix5 (0 : Fin 1) a v h i)
      = ix5 (⟨t.val / 8, by have := t.isLt; have : cfg0.N = 16 := N_0; omega⟩ : Fin 2)
          (⟨t.val % 8 * 256 + a.val, by have := a.isLt; omega⟩ : Fin 2048) v h i := by
  obtain ⟨-, -, -, -, -, e0, e1, e2, e3, e4, -⟩ := idx_facts t
  funext d
  apply Fin.ext
  match d with
  | ⟨0, _⟩ => show win0_1.index t (0 : Fin 5) * 1 + 1 * 0 = t.val / 8; rw [e0]; omega
  | ⟨1, _⟩ => show win0_1.index t (1 : Fin 5) * 256 + 1 * a.val = t.val % 8 * 256 + a.val; rw [e1]; omega
  | ⟨2, _⟩ => show win0_1.index t (2 : Fin 5) * 8 + 1 * v.val = v.val; rw [e2]; omega
  | ⟨3, _⟩ => show win0_1.index t (3 : Fin 5) * 8 + 1 * h.val = h.val; rw [e3]; omega
  | ⟨4, _⟩ => show win0_1.index t (4 : Fin 5) * 64 + 1 * i.val = i.val; rw [e4]; omega

/-- THE QUERY BLOCK of point `t` at (a, v, h, i): the first argument at batch `t / 8`, position `8·(256·(t % 8) + a) + v`,
    head `h`, feature `i`. -/
theorem iblk0_apply (c : Dev nD) (t : Fin cfg0.N) (a : Fin 256) (v h : Fin 8) (i : Fin 64) :
    (iblk m c 0 t : Vec Ideal S1x256x8x8x64 .f32) (ix5 (0 : Fin 1) a v h i)
      = m ((c : Thread nD τ).loc main_arg0)
          (ix4 (⟨t.val / 8, by have := t.isLt; have : cfg0.N = 16 := N_0; omega⟩ : Fin 2)
            (Cert.Attn.pos (⟨t.val % 8 * 256 + a.val, by have := a.isLt; omega⟩ : Fin 2048) v) h i) := by
  unfold iblk
  rw [View.read_apply]
  show V m c main_v0 (((cfg0.win 0).blk t).view.emb (ix5 (0 : Fin 1) a v h i)) = _
  rw [emb0, V_v0, reshape_apply]

/-- THE KEY BLOCK likewise, of the second argument. -/
theorem iblk1_apply (c : Dev nD) (t : Fin cfg0.N) (a : Fin 256) (v h : Fin 8) (i : Fin 64) :
    (iblk m c 1 t : Vec Ideal S1x256x8x8x64 .f32) (ix5 (0 : Fin 1) a v h i)
      = m ((c : Thread nD τ).loc main_arg1)
          (ix4 (⟨t.val / 8, by have := t.isLt; have : cfg0.N = 16 := N_0; omega⟩ : Fin 2)
            (Cert.Attn.pos (⟨t.val % 8 * 256 + a.val, by have := a.isLt; omega⟩ : Fin 2048) v) h i) := by
  unfold iblk
  rw [View.read_apply]
  show V m c main_v1 (((cfg0.win 1).blk t).view.emb (ix5 (0 : Fin 1) a v h i)) = _
  rw [emb1, V_v1, reshape_apply]

end Cert.KernelIdeal.Body

end
-- ==== Proof.Final.lean ====
/-
  The kernel's last mile: from what the last point of each batch leaves in the output block to the whole result array.

  The grid has 16 points; point `t` works on batch `t / 8`, chunk `t % 8`. The output array has extents (16, 64, 64) and
  the output block at point `t` is its rows `8·(t / 8) … 8·(t / 8) + 7`; the block is written back exactly at the points
  with `t % 8 = 7`, the last chunk of a batch. Suppose (`LastPoint`) that at such a point the block holds, at
  `(a, p, q)`, the softmax of the scaled scores of batch `t / 8` and residue `a`. Row `8·(t / 8) + a` of the specification's
  result is that same matrix, since `(8·(t / 8) + a) / 8 = t / 8` and `(8·(t / 8) + a) % 8 = a`: so what is written back
  is the result read through the block. The two write-backs (points 7 and 15) cover rows 0–7 and 8–15, every index of
  the array, so the array ends holding the result.
-/
import proofs.«157863_j53300544143372_2_alg».proof.Proof.Gen.KernelIdeal.Value
import proofs.«157863_j53300544143372_2_alg».proof.Proof.Spec
import proofs.«157863_j53300544143372_2_alg».proof.Proof.Blocks
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- At the last chunk of a batch the output block holds, at `(a, p, q)`, the softmax of the scaled scores of batch
    `t / 8` and residue `a`. -/
def LastPoint : Prop := ∀ (c : Dev nD) (t : Fin cfg0.N) (ht : t.val % 8 = 7) (a : Fin 8) (p q : Fin 64),
    outsAt0 m c t.val t.isLt (ix3 a p q)
      = Cert.Attn.probs (m ((c : Thread nD τ).loc main_arg0)) (m ((c : Thread nD τ).loc main_arg1))
          ⟨t.val / 8, by have := t.isLt; have : cfg0.N = 16 := N_0; omega⟩ a p q

/-- The output block of point `t` at `(a, p, q)` is the array's index `(8·(t / 8) + a, p, q)`. -/
theorem out_emb (t : Fin cfg0.N) (a : Fin 8) (p q : Fin 64) :
    ((cfg0.win 2).blk t).view.emb (ix3 a p q)
      = ix3 (⟨t.val / 8 * 8 + a.val, by
          have := t.isLt; have : cfg0.N = 16 := N_0; have := a.isLt; omega⟩ : Fin 16) p q := by
  obtain ⟨-, -, -, -, -, -, -, -, -, -, e0, e1, e2⟩ := idx_facts t
  have ha : a.val < 8 := a.isLt
  have hp : p.val < 64 := p.isLt
  have hq : q.val < 64 := q.isLt
  funext d
  apply Fin.ext
  match d with
  | ⟨0, _⟩ => show win0_2.index t (0 : Fin 3) * 8 + 1 * a.val = t.val / 8 * 8 + a.val; rw [e0]; omega
  | ⟨1, _⟩ => show win0_2.index t (1 : Fin 3) * 64 + 1 * p.val = p.val; rw [e1]; omega
  | ⟨2, _⟩ => show win0_2.index t (2 : Fin 3) * 64 + 1 * q.val = q.val; rw [e2]; omega

/-- The result's row block `8·b + a` is the softmax matrix of batch `b`, residue `a`. -/
theorem result_row (x0 x1 : Cert.Attn.Arg) (b : Fin 2) (a : Fin 8) (p q : Fin 64) (r : Fin 16) (hr : r.val = b.val * 8 + a.val) :
    Cert.Attn.result x0 x1 (ix3 r p q) = Cert.Attn.probs x0 x1 b a p q := by
  have ha : a.val < 8 := a.isLt
  have hb : (⟨r.val / 8, by have := r.isLt; omega⟩ : Fin 2) = b := Fin.ext (by show r.val / 8 = b.val; omega)
  have hv : (⟨r.val % 8, Nat.mod_lt _ (by decide)⟩ : Fin 8) = a := Fin.ext (by show r.val % 8 = a.val; omega)
  show Cert.Attn.probs x0 x1 ⟨r.val / 8, _⟩ ⟨r.val % 8, _⟩ p q = _
  rw [hb, hv]

/-- What a write-back writes is the result read through the block. -/
theorem flushed_eq (hlast : LastPoint m) (c : Dev nD) (t : Fin cfg0.N) (hf : (cfg0.win 2).flush t = true) :
    (dats m 0 c).flushed 2 t = ((cfg0.win 2).blk t).view.read (Elt Ideal)
      (Cert.Attn.result (m ((c : Thread nD τ).loc main_arg0)) (m ((c : Thread nD τ).loc main_arg1))) := by
  have ht : t.val % 8 = 7 := (flush0_2 t).mp hf
  rw [Value.flushed2]
  funext y
  obtain ⟨a, p, q, rfl⟩ : ∃ a p q, y = ix3 a p q := ⟨y 0, y 1, y 2, eq_ix3 y⟩
  show outsAt0 m c t.val t.isLt (ix3 a p q)
    = Cert.Attn.result (m ((c : Thread nD τ).loc main_arg0)) (m ((c : Thread nD τ).loc main_arg1))
        (((cfg0.win 2).blk t).view.emb (ix3 a p q))
  rw [hlast c t ht a p q, out_emb t a p q]
  exact (result_row _ _ _ a p q _ rfl).symm

/-- An index of the array is in point `t`'s block iff each coordinate is in the block's range on its axis. -/
theorem out_mem_blk (t : Fin cfg0.N) (i : S16x64x64.Idx) :
    i ∈ ((cfg0.win 2).blk t).view.set ↔ ∀ a : Fin 3, win0_2.index t a * S8x64x64.size a ≤ (i a).val
      ∧ (i a).val < win0_2.index t a * S8x64x64.size a + S8x64x64.size a := by
  show i ∈ ((View.whole main_v2).slice (win0_2.rect t)).set ↔ _
  rw [View.set_slice_whole, Rect.mem_set_unit]
  exact Iff.rfl

/-- Every index of the array is in the block of the last point of its row block's batch. -/
theorem out_cover (i : S16x64x64.Idx) :
    ∃ t : Fin cfg0.N, (cfg0.win 2).flush t = true ∧ i ∈ ((cfg0.win 2).blk t).view.set := by
  have hN : cfg0.N = 16 := N_0
  have hi0 : (i 0).val < 16 := (i 0).isLt
  have hi1 : (i 1).val < 64 := (i 1).isLt
  have hi2 : (i 2).val < 64 := (i 2).isLt
  obtain ⟨t, htv⟩ : ∃ t : Fin cfg0.N, t.val = (i 0).val / 8 * 8 + 7 := ⟨⟨(i 0).val / 8 * 8 + 7, by omega⟩, rfl⟩
  obtain ⟨-, -, -, -, -, -, -, -, -, -, e0, e1, e2⟩ := idx_facts t
  refine ⟨t, (flush0_2 t).mpr (by omega), ?_⟩
  rw [out_mem_blk]
  intro a
  match a with
  | ⟨0, _⟩ =>
    show win0_2.index t (0 : Fin 3) * 8 ≤ (i 0).val ∧ (i 0).val < win0_2.index t (0 : Fin 3) * 8 + 8
    rw [e0]; omega
  | ⟨1, _⟩ =>
    show win0_2.index t (1 : Fin 3) * 64 ≤ (i 1).val ∧ (i 1).val < win0_2.index t (1 : Fin 3) * 64 + 64
    rw [e1]; omega
  | ⟨2, _⟩ =>
    show win0_2.index t (2 : Fin 3) * 64 ≤ (i 2).val ∧ (i 2).val < win0_2.index t (2 : Fin 3) * 64 + 64
    rw [e2]; omega

/-- So the output array ends holding the result. -/
theorem final (hlast : LastPoint m) (c : Dev nD) :
    (dats m 0 c).arrAt 2 cfg0.N
      = Cert.Attn.result (m ((c : Thread nD τ).loc main_arg0)) (m ((c : Thread nD τ).loc main_arg1)) :=
  (dats m 0 c).arrAt_eq_of_cover 2 _ (flushed_eq m hlast c) out_cover

/-- The run, read: the output array at the result, the arguments unchanged. -/
theorem run (hlast : LastPoint m) :
    θ_run defs (onTc (τ := τ) (main (F := Ideal))) ⟨m, fun _ => 0, ρ⟩ fun r => ∀ c : Dev nD,
      r.2.mem ((c : Thread nD τ).loc main_v2)
        = Cert.Attn.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hlast c), (h c).2⟩) (Value.run_blocks m ρ)

end Cert.KernelIdeal.Body

end
-- ==== Proof.Slab.lean ====
/-
  One residue's update of the 64 × 64 accumulator tile, as a pure function, and what it is at an index.

  For a residue `v` the body loads the rows `(a, h)` — `a < 256` positions of the chunk, `h < 8` heads — of the query
  and key blocks at that residue as two 2048 × 64 matrices (row `8a + h`), contracts them over the rows and adds the
  product to the tile: at (i, j) the new tile is the old one plus `∑ over r < 2048 of q[r / 8, r % 8, i] · k[r / 8, r % 8, j]`.
  The body's eight stores spell this one function in a few different groupings of the same operations.
-/
import proofs.«157863_j53300544143372_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {F : FTy → Type} [FloatOps F]

/-- The tile `o` plus the contraction, over the 2048 rows, of the two loaded slices read as 2048 × 64 matrices. -/
def slab (q k : Vec F S1x256x1x8x64 .f32) (o : Vec F S1x64x64 .f32) : FVec F S1x64x64 .f32 :=
  shapeCast S1x64x64
    (addf (shapeCast S64x64 o shapeCasts_S1x64x64_S64x64)
      (matmul dot_S2048x64_S2048x64_S64x64_0_0_1_1_n_n (some .fp32)
        (shapeCast S2048x64 (shapeCast S256x8x64 q shapeCasts_S1x256x1x8x64_S256x8x64) shapeCasts_S256x8x64_S2048x64)
        (shapeCast S2048x64 (shapeCast S256x8x64 k shapeCasts_S1x256x1x8x64_S256x8x64) shapeCasts_S256x8x64_S2048x64)
        (constant S64x64 .f32 0x00000000#32)))
    shapeCasts_S64x64_S1x64x64

/-! The eight stores' payloads are this function of the slices they load. -/

theorem pay4_eq (q k : Vec F S1x256x1x8x64 .f32) (o : Vec F S1x64x64 .f32) : k0_pay4 q k o = slab q k o := rfl
theorem pay6_eq (q k : Vec F S1x256x1x8x64 .f32) (o : Vec F S1x64x64 .f32) : k0_pay6 (k0_pay5 q k) o = slab q k o := rfl
theorem pay7_eq (q k : Vec F S1x256x1x8x64 .f32) (o : Vec F S1x64x64 .f32) : k0_pay7 q k o = slab q k o := rfl
theorem pay9_eq (q k : Vec F S1x256x1x8x64 .f32) (o : Vec F S1x64x64 .f32) : k0_pay9 (k0_pay8 q k) o = slab q k o := rfl
theorem pay10_eq (q k : Vec F S1x256x1x8x64 .f32) (o : Vec F S1x64x64 .f32) : k0_pay10 q k o = slab q k o := rfl
theorem pay13_eq (q k : Vec F S1x256x1x8x64 .f32) (o : Vec F S1x64x64 .f32) :
    k0_pay13 (k0_pay11 q) (k0_pay12 k) (constant S64x64 .f32 0#32) o = slab q k o := rfl
theorem pay14_eq (q k : Vec F S1x256x1x8x64 .f32) (o : Vec F S1x64x64 .f32) : k0_pay14 q k o = slab q k o := rfl
theorem pay1_eq (q k : Vec F S1x256x1x8x64 .f32) (o : Vec F S1x64x64 .f32) : k0_pay1 (k0_pay15 q) (k0_pay16 k) o = slab q k o := rfl

/-- Row `r` of the 2048 × 64 matrix a loaded slice is read as: position `r / 8` of the chunk, head `r % 8`. -/
abbrev rowIx (r : Fin 2048) (i : Fin 64) : S1x256x1x8x64.Idx :=
  ix5 (0 : Fin 1) (⟨r.val / 8, by have := r.isLt; omega⟩ : Fin 256) (0 : Fin 1) (⟨r.val % 8, Nat.mod_lt _ (by decide)⟩ : Fin 8) i

/-- A loaded slice, read as a 2048 × 64 matrix, at (r, i). -/
theorem rows_apply {α : Type} (q : S1x256x1x8x64.Idx → α) (r : Fin 2048) (i : Fin 64) :
    shapeCast S2048x64 (shapeCast S256x8x64 q shapeCasts_S1x256x1x8x64_S256x8x64) shapeCasts_S256x8x64_S2048x64 (ix2 r i)
      = q (rowIx r i) := by
  have hr := r.isLt
  refine (shapeCast_apply _ shapeCasts_S256x8x64_S2048x64 (ix2 r i)
    (ix3 (⟨r.val / 8, by omega⟩ : Fin 256) (⟨r.val % 8, Nat.mod_lt _ (by decide)⟩ : Fin 8) i) ?_).trans ?_
  · rw [Shape.rowMajor_val_three, Shape.rowMajor_val_two]
    show (r.val / 8 * 8 + r.val % 8) * 64 + i.val = r.val * 64 + i.val
    omega
  · refine shapeCast_apply q shapeCasts_S1x256x1x8x64_S256x8x64 _ (rowIx r i) ?_
    rw [Shape.rowMajor_val_five, Shape.rowMajor_val_three]
    show (((0 * 256 + r.val / 8) * 1 + 0) * 8 + r.val % 8) * 64 + i.val = (r.val / 8 * 8 + r.val % 8) * 64 + i.val
    omega

/-! ## The update at an index, over the extended reals -/

local notation "D" => dot_S2048x64_S2048x64_S64x64_0_0_1_1_n_n

/-- The contraction's left index at output (i, j) and row r is (r, i): axis 0 is the contracted one, -/
theorem lhs_row (y : S64x64.Idx) (q : (D).contr.Idx) :
    ((D).lhsIdx y q 0).val = (q ⟨0, by decide⟩).val :=
  (D).lhsIdx_val_of_single rfl y q
/-- axis 1 reads the output's first coordinate; -/
theorem lhs_col (y : S64x64.Idx) (q : (D).contr.Idx) :
    ((D).lhsIdx y q 1).val = (y 0).val := by
  unfold DotDims.lhsIdx
  rw [dif_neg (show ¬(1 : Fin S2048x64.rank) ∈ (D).lhsBatch by decide),
    dif_pos (show (1 : Fin S2048x64.rank) ∈ (D).lhsNonContracting by decide)]
  rfl
/-- the right index is (r, j) likewise. -/
theorem rhs_row (y : S64x64.Idx) (q : (D).contr.Idx) :
    ((D).rhsIdx y q 0).val = (q ⟨0, by decide⟩).val :=
  (D).rhsIdx_val_of_single rfl y q
theorem rhs_col (y : S64x64.Idx) (q : (D).contr.Idx) :
    ((D).rhsIdx y q 1).val = (y 1).val := by
  unfold DotDims.rhsIdx
  rw [dif_neg (show ¬(1 : Fin S2048x64.rank) ∈ (D).rhsBatch by decide),
    dif_pos (show (1 : Fin S2048x64.rank) ∈ (D).rhsNonContracting by decide)]
  rfl

/-- The product of two 2048 × 64 matrices contracted over their rows, into a zero tile, at (i, j): the sum over the
    rows of the (r, i) entry of the one times the (r, j) entry of the other. -/
theorem gram_apply (a b : FVec Ideal S2048x64 .f32) (i j : Fin 64) :
    matmul (D) (some .fp32) a b (constant S64x64 .f32 0x00000000#32) (ix2 i j)
      = ∑ r : Fin 2048, a (ix2 r i) * b (ix2 r j) := by
  simp only [matmul]
  rw [Ideal.matmul_constant_zero_apply, ← Equiv.sum_comp (contrEquiv1 (D) 2048 rfl rfl).symm]
  refine Finset.sum_congr rfl fun r _ => ?_
  have hr := contrEquiv1_symm_val (D) 2048 rfl rfl r
  have el : (D).lhsIdx (ix2 i j) ((contrEquiv1 (D) 2048 rfl rfl).symm r) = ix2 r i := funext fun x => Fin.ext (by
    match x with
    | ⟨0, _⟩ => exact (lhs_row _ _).trans hr
    | ⟨1, _⟩ => exact lhs_col _ _)
  have er : (D).rhsIdx (ix2 i j) ((contrEquiv1 (D) 2048 rfl rfl).symm r) = ix2 r j := funext fun x => Fin.ext (by
    match x with
    | ⟨0, _⟩ => exact (rhs_row _ _).trans hr
    | ⟨1, _⟩ => exact rhs_col _ _)
  rw [el, er]

/-- THE UPDATE AT (i, j): the old tile's entry plus the sum, over the 2048 rows (position `r / 8`, head `r % 8`), of the
    query slice's feature `i` times the key slice's feature `j`. -/
theorem slab_apply (q k : Vec Ideal S1x256x1x8x64 .f32) (o : Vec Ideal S1x64x64 .f32) (i j : Fin 64) :
    slab (F := Ideal) q k o (ix3 (0 : Fin 1) i j)
      = o (ix3 (0 : Fin 1) i j) + ∑ r : Fin 2048, q (rowIx r i) * k (rowIx r j) := by
  unfold slab
  refine (shapeCast_apply _ shapeCasts_S64x64_S1x64x64 (ix3 (0 : Fin 1) i j) (ix2 i j) ?_).trans ?_
  · rw [Shape.rowMajor_val_two, Shape.rowMajor_val_three]
    show i.val * 64 + j.val = (0 * 64 + i.val) * 64 + j.val
    omega
  rw [addf_apply, gram_apply]
  congr 1
  · refine shapeCast_apply o shapeCasts_S1x64x64_S64x64 (ix2 i j) (ix3 (0 : Fin 1) i j) ?_
    rw [Shape.rowMajor_val_three, Shape.rowMajor_val_two]
    show (0 * 64 + i.val) * 64 + j.val = i.val * 64 + j.val
    omega
  · exact Finset.sum_congr rfl fun r _ => by rw [rows_apply, rows_apply]

end Cert.KernelIdeal.Body

end
-- ==== Proof.Tiles.lean ====
/-
  Reading an 8 × 64 × 64 buffer that was written tile by tile.

  The accumulator block is written through eight rectangles, tile `a` being [a, a+1) × 64 × 64. The tiles partition the
  block, so whatever was stored before them, the block afterwards holds at (s, i, j) what tile `s`'s store put at (i, j);
  a load of tile `b` does not see a store into another tile `a ≠ b`; and after ONE store of the whole block a load of a
  tile reads that store's payload there.
-/
import proofs.«157863_j53300544143372_2_alg».proof.Proof.Gen.KernelIdeal
import Idealize.ShloMosaic.Lib.Pipeline.CanonAppend
import Idealize.ShloMosaic.Lib.Ring
import Idealize.ShloMosaic.Lib.Tactic
import Idealize.ShloMosaic.Lib.ValueIdx

noncomputable section

namespace Cert.KernelIdeal.Tiles

open Cert.KernelIdeal Idealize.ShloMosaic Idealize.ShloMosaic.ValueIdx

variable {Val : EltTy → Type} [∀ e, Nonempty (Val e)]

/-- Tile `a` of the block: rows [a, a+1) of the first axis, everything of the other two. -/
abbrev tile (a : ℕ) (inb : ∀ x, (![a, 0, 0] : Fin 3 → ℕ) x + S1x64x64.size x ≤ S8x64x64.size x) : Rect S8x64x64 :=
  Rect.unit ![a, 0, 0] S1x64x64.size inb

/-- Where tile `a`'s own index (0, i, j) sits in the block: at (a, i, j). -/
theorem tile_emb (a : ℕ) (ha : a < 8) (inb : ∀ x, (![a, 0, 0] : Fin 3 → ℕ) x + S1x64x64.size x ≤ S8x64x64.size x)
    (x : S1x64x64.Idx) : (tile a inb).emb x = ix3 (⟨a, ha⟩ : Fin 8) (x 1) (x 2) := by
  funext d
  apply Fin.ext
  have h0 : (x 0).val = 0 := by have : (x 0).val < 1 := (x 0).isLt; omega
  match d with
  | ⟨0, _⟩ => show a + 1 * (x 0).val = a; omega
  | ⟨1, _⟩ => show 0 + 1 * (x 1).val = (x 1).val; omega
  | ⟨2, _⟩ => show 0 + 1 * (x 2).val = (x 2).val; omega

/-- A tile's own index is (0, i, j). -/
theorem tile_idx (x : S1x64x64.Idx) : x = ix3 (0 : Fin 1) (x 1) (x 2) := by
  funext d
  match d with
  | ⟨0, _⟩ => exact Fin.ext (by have : (x 0).val < 1 := (x 0).isLt; show (x 0).val = 0; omega)
  | ⟨1, _⟩ => rfl
  | ⟨2, _⟩ => rfl

/-- A family of tile payloads, one per tile, agrees on tile `a` with the block function it assembles to. -/
theorem tile_piece (H : Fin 8 → S1x64x64.Idx → Val .f32) (a : Fin 8)
    (inb : ∀ x, (![a.val, 0, 0] : Fin 3 → ℕ) x + S1x64x64.size x ≤ S8x64x64.size x) (x : S1x64x64.Idx) :
    H a x = (fun y : S8x64x64.Idx => H (y 0) (ix3 (0 : Fin 1) (y 1) (y 2))) ((tile a.val inb).emb x) := by
  rw [tile_emb a.val a.isLt inb x]
  exact congrArg (H a) (tile_idx x)

/-- THE BLOCK AFTER THE EIGHT TILE STORES, whatever was stored before them (`L'`): at (s, i, j), tile `s`'s payload at
    (i, j). The payloads are given one by one, each with the member of the family `H` it is. -/
theorem canon_tiles (H : Fin 8 → S1x64x64.Idx → Val .f32)
    (w0 w1 w2 w3 w4 w5 w6 w7 : S1x64x64.Idx → Val .f32)
    (h0 : w0 = H 0) (h1 : w1 = H 1) (h2 : w2 = H 2) (h3 : w3 = H 3) (h4 : w4 = H 4) (h5 : w5 = H 5) (h6 : w6 = H 6) (h7 : w7 = H 7)
    (i0 : ∀ x, (![0, 0, 0] : Fin 3 → ℕ) x + S1x64x64.size x ≤ S8x64x64.size x)
    (i1 : ∀ x, (![1, 0, 0] : Fin 3 → ℕ) x + S1x64x64.size x ≤ S8x64x64.size x)
    (i2 : ∀ x, (![2, 0, 0] : Fin 3 → ℕ) x + S1x64x64.size x ≤ S8x64x64.size x)
    (i3 : ∀ x, (![3, 0, 0] : Fin 3 → ℕ) x + S1x64x64.size x ≤ S8x64x64.size x)
    (i4 : ∀ x, (![4, 0, 0] : Fin 3 → ℕ) x + S1x64x64.size x ≤ S8x64x64.size x)
    (i5 : ∀ x, (![5, 0, 0] : Fin 3 → ℕ) x + S1x64x64.size x ≤ S8x64x64.size x)
    (i6 : ∀ x, (![6, 0, 0] : Fin 3 → ℕ) x + S1x64x64.size x ≤ S8x64x64.size x)
    (i7 : ∀ x, (![7, 0, 0] : Fin 3 → ℕ) x + S1x64x64.size x ≤ S8x64x64.size x)
    (L' : List (View.Piece Val S8x64x64 .f32)) (y : S8x64x64.Idx) :
    View.canon ((⟨tile 7 i7, w7⟩ : View.Piece Val S8x64x64 .f32) :: ⟨tile 6 i6, w6⟩ :: ⟨tile 5 i5, w5⟩ :: ⟨tile 4 i4, w4⟩
        :: ⟨tile 3 i3, w3⟩ :: ⟨tile 2 i2, w2⟩ :: ⟨tile 1 i1, w1⟩ :: ⟨tile 0 i0, w0⟩ :: L') y
      = H (y 0) (ix3 (0 : Fin 1) (y 1) (y 2)) := by
  subst h0 h1 h2 h3 h4 h5 h6 h7
  refine View.canon_append_of_pieces (fun y : S8x64x64.Idx => H (y 0) (ix3 (0 : Fin 1) (y 1) (y 2))) L'
    [⟨tile 7 i7, H 7⟩, ⟨tile 6 i6, H 6⟩, ⟨tile 5 i5, H 5⟩, ⟨tile 4 i4, H 4⟩, ⟨tile 3 i3, H 3⟩, ⟨tile 2 i2, H 2⟩,
      ⟨tile 1 i1, H 1⟩, ⟨tile 0 i0, H 0⟩] ?_ y ?_
  · intro p hp
    simp only [List.mem_cons, List.not_mem_nil, or_false] at hp
    rcases hp with rfl | rfl | rfl | rfl | rfl | rfl | rfl | rfl
    · exact tile_piece H 7 i7
    · exact tile_piece H 6 i6
    · exact tile_piece H 5 i5
    · exact tile_piece H 4 i4
    · exact tile_piece H 3 i3
    · exact tile_piece H 2 i2
    · exact tile_piece H 1 i1
    · exact tile_piece H 0 i0
  · exact View.cover_of_tiledL (s := S8x64x64) _ S1x64x64.size (by sl_kernel_rfl) y

/-- A load of tile `b` does not see a store into another tile. -/
theorem readCov_tile_skip {sig : RefSig} {κ : Kind} {sp : Space} (v : View sig κ sp S8x64x64 .f32) (a b : ℕ) (hab : a ≠ b)
    (ia : ∀ x, (![a, 0, 0] : Fin 3 → ℕ) x + S1x64x64.size x ≤ S8x64x64.size x)
    (ib : ∀ x, (![b, 0, 0] : Fin 3 → ℕ) x + S1x64x64.size x ≤ S8x64x64.size x)
    (w : S1x64x64.Idx → Val .f32) (L : List (View.Piece Val S8x64x64 .f32)) :
    v.readCov ((⟨tile a ia, w⟩ : View.Piece Val S8x64x64 .f32) :: L) (tile b ib).toLoadRect
      = v.readCov L (tile b ib).toLoadRect :=
  View.readCov_cons_of_disjoint v _ L _
    (Rect.unit_disjoint (inb := ia) (inb' := ib) (0 : Fin 3) (by show a + 1 ≤ b ∨ b + 1 ≤ a; omega))

theorem hz3 : (![0, 0, 0] : Fin 3 → ℕ) = fun _ => 0 := funext fun a => by fin_cases a <;> rfl

/-- After one store of the whole block, a load through any rectangle reads that store's payload there. -/
theorem readCov_whole {sig : RefSig} {κ : Kind} {sp : Space} (v : View sig κ sp S8x64x64 .f32)
    (inb : ∀ x, (![0, 0, 0] : Fin 3 → ℕ) x + S8x64x64.size x ≤ S8x64x64.size x) (w : S8x64x64.Idx → Val .f32)
    (B : Rect S8x64x64) :
    v.readCov [(⟨Rect.unit ![0, 0, 0] S8x64x64.size inb, w⟩ : View.Piece Val S8x64x64 .f32)] B.toLoadRect = View.ld w B := by
  rw [View.readCov_eq_canon', View.canon_unit_zero hz3]

/-- A load of the whole block after any stores reads the block they leave. -/
theorem readCov_all {sig : RefSig} {κ : Kind} {sp : Space} (v : View sig κ sp S8x64x64 .f32)
    (inb : ∀ x, (![0, 0, 0] : Fin 3 → ℕ) x + S8x64x64.size x ≤ S8x64x64.size x)
    (L : List (View.Piece Val S8x64x64 .f32)) :
    v.readCov L (Rect.unit ![0, 0, 0] S8x64x64.size inb).toLoadRect = View.canon L := by
  rw [View.readCov_eq_canon']
  exact View.ld_unit_zero hz3 inb (View.canon L)

end Cert.KernelIdeal.Tiles

end
-- ==== Proof.Softmax.lean ====
/-
  The body's last step on the finished accumulator block, as a pure function, and what it is at an index.

  The block `X` (8 × 64 × 64) is scaled by 1/8; along the last axis each row's maximum is subtracted, exponentials are
  taken and divided by their sum along the row. At (s, i, j) that is the softmax row of `l ↦ X[s, i, l] · 1/8` at `j`.
-/
import proofs.«157863_j53300544143372_2_alg».proof.Proof.Gen.KernelIdeal.Skeleton
import proofs.«157863_j53300544143372_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {F : FTy → Type} [FloatOps F]

/-- The block scaled by the constant 1/8. -/
def scaleBlk (X : Vec F S8x64x64 .f32) : FVec F S8x64x64 .f32 :=
  mulf (shapeCast S8x64x64 X shapeCasts_S8x64x64_S8x64x64) (broadcast S8x64x64 (Scalar.ofBits .f32 0x3E000000#32))

/-- A per-row statistic (8 × 64) laid back along the rows (8 × 64 × 64). -/
def keep (v : FVec F S8x64 .f32) : FVec F S8x64x64 .f32 :=
  broadcastTo S8x64x64 (shapeCast S8x64x1 v shapeCasts_S8x64_S8x64x1) broadcasts_S8x64x1_S8x64x64

/-- The exponentials of a block less its row maxima. -/
def expBlk (Y : FVec F S8x64x64 .f32) : FVec F S8x64x64 .f32 :=
  exp (subf Y (keep (multiReduction .maximumf [2] S8x64 Y 0xFF800000#32 reduces_S8x64x64_S8x64 (.inl rfl) rfl)))

/-- The row softmax of a block. -/
def softBlk (Y : FVec F S8x64x64 .f32) : FVec F S8x64x64 .f32 :=
  divf (expBlk Y) (keep (multiReduction .add [2] S8x64 (expBlk Y) 0x00000000#32 reduces_S8x64x64_S8x64 (.inl rfl) rfl))

/-- The last store's payload is the row softmax of the scaled block. -/
theorem pay2_eq (X : Vec F S8x64x64 .f32) : k0_pay2 X = softBlk (scaleBlk X) := rfl

/-- A laid-back statistic at (s, i, j) is the statistic at (s, i). -/
theorem keep_apply (v : FVec F S8x64 .f32) (s : Fin 8) (i j : Fin 64) : keep v (ix3 s i j) = v (ix2 s i) := by
  unfold keep
  refine (broadcastTo_apply _ broadcasts_S8x64x1_S8x64x64 (ix3 s i j) (ix3 s i (0 : Fin 1)) ?_).trans ?_
  · intro a
    match a with
    | ⟨0, _⟩ => show s.val = if (8 : ℕ) = 1 then 0 else s.val; rw [if_neg (by decide)]
    | ⟨1, _⟩ => show i.val = if (64 : ℕ) = 1 then 0 else i.val; rw [if_neg (by decide)]
    | ⟨2, _⟩ => show 0 = if (1 : ℕ) = 1 then 0 else j.val; rw [if_pos rfl]
  · refine shapeCast_apply v shapeCasts_S8x64_S8x64x1 _ (ix2 s i) ?_
    rw [Shape.rowMajor_val_two, Shape.rowMajor_val_three]
    show s.val * 64 + i.val = (s.val * 64 + i.val) * 1 + 0
    omega

/-- The scaled block at an index. -/
theorem scaleBlk_apply (X : Vec Ideal S8x64x64 .f32) (y : S8x64x64.Idx) :
    scaleBlk (F := Ideal) X y = X y * Ideal.ofBits .f32 0x3E000000#32 := by
  unfold scaleBlk
  rw [shapeCast_self]
  rfl

/-- A row's maximum along the last axis, at (s, i): the fold of `max` from `-∞` over the row. -/
theorem rowmax_apply (Y : FVec Ideal S8x64x64 .f32) (hφ : FKind.Formats .f32)
    (hacc : (0xFF800000#32 : BitVec 32) = FKind.maximumf.neutral .f32 hφ) (s : Fin 8) (i : Fin 64) :
    multiReduction .maximumf [2] S8x64 Y 0xFF800000#32 reduces_S8x64x64_S8x64 hφ hacc (ix2 s i)
      = Cert.Attn.rowMax (fun l => Y (ix3 s i l)) := by
  refine (Ideal.multiReduction_maximumf_single Y 0xFF800000#32 reduces_S8x64x64_S8x64 hφ hacc (ix2 s i)).trans ?_
  unfold Cert.Attn.rowMax
  refine congrArg (Finset.fold max _ · Finset.univ) (funext fun l => ?_)
  exact congrArg Y (funext fun a => Fin.ext (by match a with | ⟨0, _⟩ => rfl | ⟨1, _⟩ => rfl | ⟨2, _⟩ => rfl))

/-- A row's sum along the last axis, at (s, i). -/
theorem rowsum_apply (Y : FVec Ideal S8x64x64 .f32) (hφ : FKind.Formats .f32)
    (hacc : (0x00000000#32 : BitVec 32) = FKind.add.neutral .f32 hφ) (s : Fin 8) (i : Fin 64) :
    multiReduction .add [2] S8x64 Y 0x00000000#32 reduces_S8x64x64_S8x64 hφ hacc (ix2 s i)
      = ∑ l : Fin 64, Y (ix3 s i l) := by
  refine (Ideal.multiReduction_add_single Y 0x00000000#32 reduces_S8x64x64_S8x64 hφ hacc (ix2 s i)).trans ?_
  refine Finset.sum_congr rfl fun l _ => ?_
  exact congrArg Y (funext fun a => Fin.ext (by match a with | ⟨0, _⟩ => rfl | ⟨1, _⟩ => rfl | ⟨2, _⟩ => rfl))

/-- The exponentials at an index. -/
theorem expBlk_apply (Y : FVec Ideal S8x64x64 .f32) (s : Fin 8) (i l : Fin 64) :
    expBlk (F := Ideal) Y (ix3 s i l) = Ideal.exp (Y (ix3 s i l) - Cert.Attn.rowMax (fun l' => Y (ix3 s i l'))) := by
  unfold expBlk
  show Ideal.exp (Y (ix3 s i l) - keep (F := Ideal) _ (ix3 s i l)) = _
  rw [keep_apply]
  exact congrArg (fun m => Ideal.exp (Y (ix3 s i l) - m)) (rowmax_apply Y _ _ s i)

/-- THE ROW SOFTMAX AT AN INDEX. -/
theorem softBlk_apply (Y : FVec Ideal S8x64x64 .f32) (s : Fin 8) (i j : Fin 64) :
    softBlk (F := Ideal) Y (ix3 s i j) = Cert.Attn.soft (fun l => Y (ix3 s i l)) j := by
  unfold softBlk
  show Ideal.div (expBlk (F := Ideal) Y (ix3 s i j)) (keep (F := Ideal) _ (ix3 s i j)) = _
  rw [keep_apply, expBlk_apply]
  refine (congrArg (Ideal.div _) (rowsum_apply (expBlk (F := Ideal) Y) _ _ s i)).trans ?_
  unfold Cert.Attn.soft
  exact congrArg (Ideal.div _) (Finset.sum_congr rfl fun l _ => expBlk_apply Y s i l)

/-- The last store's payload at (s, i, j): the softmax row of the block's row (s, i) scaled by 1/8. -/
theorem pay2_apply (X : Vec Ideal S8x64x64 .f32) (s : Fin 8) (i j : Fin 64) :
    k0_pay2 (F := Ideal) X (ix3 s i j)
      = Cert.Attn.soft (fun l => X (ix3 s i l) * Ideal.ofBits .f32 0x3E000000#32) j := by
  rw [pay2_eq, softBlk_apply]
  exact congrArg (Cert.Attn.soft · j) (funext fun l => scaleBlk_apply X _)

end Cert.KernelIdeal.Body

end
-- ==== Proof.Cases.lean ====
/-
  What the body leaves in the accumulator block, case by case, at an index.

  With `x0`, `x1` the query and key blocks of the point (1 × 256 × 8 × 8 × 64: position in the chunk, residue, head,
  feature) the point's ADDEND to the score of residue `a` and features (i, j) is

      contrib x0 x1 a i j = ∑ over r < 2048 of x0[r / 8, a, r % 8, i] · x1[r / 8, a, r % 8, j].

  At a first point of a batch the body leaves `0 + contrib`; at a middle point the block it found plus `contrib`; at a
  last point the row softmax of (the block it found plus `contrib`) scaled by 1/8.
-/
import proofs.«157863_j53300544143372_2_alg».proof.Proof.Gen.KernelIdeal.Frame
import proofs.«157863_j53300544143372_2_alg».proof.Proof.Slab
import proofs.«157863_j53300544143372_2_alg».proof.Proof.Tiles
import proofs.«157863_j53300544143372_2_alg».proof.Proof.Softmax
import Idealize.ShloMosaic.Lib.Tactic

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx Idealize.SL.Sem

/-- The slice of a query or key block at residue `a`: everything of the other axes. -/
theorem inb5 (a : Fin 8) : ∀ x, (![0, 0, a.val, 0, 0] : Fin 5 → ℕ) x + S1x256x1x8x64.size x ≤ S1x256x8x8x64.size x := fun x => by
  have := a.isLt
  match x with
  | ⟨0, _⟩ => show 0 + 1 ≤ 1; omega
  | ⟨1, _⟩ => show 0 + 256 ≤ 256; omega
  | ⟨2, _⟩ => show a.val + 1 ≤ 8; omega
  | ⟨3, _⟩ => show 0 + 8 ≤ 8; omega
  | ⟨4, _⟩ => show 0 + 64 ≤ 64; omega

theorem inb3 (a : Fin 8) : ∀ x, (![a.val, 0, 0] : Fin 3 → ℕ) x + S1x64x64.size x ≤ S8x64x64.size x := fun x => by
  have := a.isLt
  match x with
  | ⟨0, _⟩ => show a.val + 1 ≤ 8; omega
  | ⟨1, _⟩ => show 0 + 64 ≤ 64; omega
  | ⟨2, _⟩ => show 0 + 64 ≤ 64; omega

abbrev slice5 (a : Fin 8) : Rect S1x256x8x8x64 := Rect.unit ![0, 0, a.val, 0, 0] S1x256x1x8x64.size (inb5 a)

variable {F : FTy → Type} [FloatOps F]

/-- Tile `a`'s update from the blocks `x0`, `x1` over the block `o`. -/
def upd (x0 x1 : Vec F S1x256x8x8x64 .f32) (o : Vec F S8x64x64 .f32) (a : Fin 8) : S1x64x64.Idx → F .f32 :=
  slab (View.ld x0 (slice5 a)) (View.ld x1 (slice5 a)) (View.ld o (Tiles.tile a.val (inb3 a)))

/-- The point's addend to the score of residue `a`, features (i, j). -/
def contrib (x0 x1 : Vec Ideal S1x256x8x8x64 .f32) (a : Fin 8) (i j : Fin 64) : EReal :=
  ∑ r : Fin 2048, x0 (ix5 (0 : Fin 1) (⟨r.val / 8, by have := r.isLt; omega⟩ : Fin 256) a (⟨r.val % 8, Nat.mod_lt _ (by decide)⟩ : Fin 8) i)
    * x1 (ix5 (0 : Fin 1) (⟨r.val / 8, by have := r.isLt; omega⟩ : Fin 256) a (⟨r.val % 8, Nat.mod_lt _ (by decide)⟩ : Fin 8) j)

/-- A block's slice at residue `a`, read at row r and feature i: the block at (r / 8, a, r % 8, i). -/
theorem ld_slice5 (x : Vec Ideal S1x256x8x8x64 .f32) (a : Fin 8) (r : Fin 2048) (i : Fin 64) :
    View.ld x (slice5 a) (rowIx r i)
      = x (ix5 (0 : Fin 1) (⟨r.val / 8, by have := r.isLt; omega⟩ : Fin 256) a (⟨r.val % 8, Nat.mod_lt _ (by decide)⟩ : Fin 8) i) := by
  show x ((slice5 a).idx (rowIx r i)) = _
  refine congrArg x (funext fun d => Fin.ext ?_)
  match d with
  | ⟨0, _⟩ => show 0 + 1 * 0 = 0; omega
  | ⟨1, _⟩ => show 0 + 1 * (r.val / 8) = r.val / 8; omega
  | ⟨2, _⟩ => show a.val + 1 * 0 = a.val; omega
  | ⟨3, _⟩ => show 0 + 1 * (r.val % 8) = r.val % 8; omega
  | ⟨4, _⟩ => show 0 + 1 * i.val = i.val; omega

/-- The update of tile `a` at (i, j): the old block's entry plus the point's addend. -/
theorem upd_apply (x0 x1 : Vec Ideal S1x256x8x8x64 .f32) (o : Vec Ideal S8x64x64 .f32) (a : Fin 8) (i j : Fin 64) :
    upd (F := Ideal) x0 x1 o a (ix3 (0 : Fin 1) i j) = o (ix3 a i j) + contrib x0 x1 a i j := by
  unfold upd
  rw [slab_apply]
  congr 1
  · show o ((Tiles.tile a.val (inb3 a)).emb (ix3 (0 : Fin 1) i j)) = _
    rw [Tiles.tile_emb a.val a.isLt]
    rfl
  · exact Finset.sum_congr rfl fun r _ => by rw [ld_slice5, ld_slice5]

/-- The zero block the first point of a batch stores, at an index. -/
theorem zero_apply (y : S8x64x64.Idx) : k0_pay3 (F := Ideal) y = 0 := by
  show Ideal.ofBits .f32 0x00000000#32 = 0
  exact Ideal.ofBits_zero_f32

variable (c : Dev nD) (i : grid0.Coords) (a2 : Memref sig .tc .vmem S1x256x8x8x64 .f32) (h2 : a2.IsWhole)
  (a3 : Memref sig .tc .vmem S1x256x8x8x64 .f32) (h3 : a3.IsWhole) (a4 : Memref sig .tc .vmem S8x64x64 .f32) (h4 : a4.IsWhole)

/-- A MIDDLE POINT: tile by tile, the update over the block it found. -/
theorem out_B_tiles (hc0 : ¬cond0_0 i) (hc1 : ¬cond0_1 i) (x0 x1 : Vec F S1x256x8x8x64 .f32) (xo2 : Vec F S8x64x64 .f32)
    (y : S8x64x64.Idx) :
    out0_B_2 c i a2 h2 a3 h3 a4 h4 hc0 hc1 x0 x1 xo2 y = upd x0 x1 xo2 (y 0) (ix3 (0 : Fin 1) (y 1) (y 2)) := by
  unfold out0_B_2
  rw [View.read_writes_junk_eq_canon]
  unfold kernelRun0_B
  dsimp only
  sl_unfold_words
  simp only [View.readAt_eq_ld, h2.read_unread, h3.read_unread, h4.read_unread]
  exact Tiles.canon_tiles (Val := Elt F) (upd x0 x1 xo2) _ _ _ _ _ _ _ _ (pay4_eq _ _ _) (pay6_eq _ _ _) (pay7_eq _ _ _) (pay9_eq _ _ _)
    (pay10_eq _ _ _) (pay13_eq _ _ _) (pay14_eq _ _ _) (pay1_eq _ _ _) _ _ _ _ _ _ _ _ [] y

/-- A FIRST POINT of a batch: the block is zeroed, then updated tile by tile (each tile's load reads the zeros). -/
theorem out_A_tiles (hc0 : cond0_0 i) (hc1 : ¬cond0_1 i) (x0 x1 : Vec F S1x256x8x8x64 .f32) (y : S8x64x64.Idx) :
    out0_A_2 c i a2 h2 a3 h3 a4 h4 hc0 hc1 x0 x1 y
      = upd x0 x1 (k0_pay3 (F := F)) (y 0) (ix3 (0 : Fin 1) (y 1) (y 2)) := by
  unfold out0_A_2
  rw [View.read_writes_junk_eq_canon]
  unfold kernelRun0_A
  dsimp only
  sl_unfold_words
  -- a tile's load sees none of the other tiles' stores, only the zeroing store of the whole block
  simp only [View.readAt_eq_ld, h2.read_unread, h3.read_unread,
    Tiles.readCov_tile_skip _ 0 1 (by omega),
    Tiles.readCov_tile_skip _ 0 2 (by omega),
    Tiles.readCov_tile_skip _ 1 2 (by omega),
    Tiles.readCov_tile_skip _ 0 3 (by omega),
    Tiles.readCov_tile_skip _ 1 3 (by omega),
    Tiles.readCov_tile_skip _ 2 3 (by omega),
    Tiles.readCov_tile_skip _ 0 4 (by omega),
    Tiles.readCov_tile_skip _ 1 4 (by omega),
    Tiles.readCov_tile_skip _ 2 4 (by omega),
    Tiles.readCov_tile_skip _ 3 4 (by omega),
    Tiles.readCov_tile_skip _ 0 5 (by omega),
    Tiles.readCov_tile_skip _ 1 5 (by omega),
    Tiles.readCov_tile_skip _ 2 5 (by omega),
    Tiles.readCov_tile_skip _ 3 5 (by omega),
    Tiles.readCov_tile_skip _ 4 5 (by omega),
    Tiles.readCov_tile_skip _ 0 6 (by omega),
    Tiles.readCov_tile_skip _ 1 6 (by omega),
    Tiles.readCov_tile_skip _ 2 6 (by omega),
    Tiles.readCov_tile_skip _ 3 6 (by omega),
    Tiles.readCov_tile_skip _ 4 6 (by omega),
    Tiles.readCov_tile_skip _ 5 6 (by omega),
    Tiles.readCov_tile_skip _ 0 7 (by omega),
    Tiles.readCov_tile_skip _ 1 7 (by omega),
    Tiles.readCov_tile_skip _ 2 7 (by omega),
    Tiles.readCov_tile_skip _ 3 7 (by omega),
    Tiles.readCov_tile_skip _ 4 7 (by omega),
    Tiles.readCov_tile_skip _ 5 7 (by omega),
    Tiles.readCov_tile_skip _ 6 7 (by omega)]
  rw [Tiles.readCov_whole _ _ _ (Tiles.tile 7 inb_S8x64x64_S1x64x64_7_0_0),
    Tiles.readCov_whole _ _ _ (Tiles.tile 6 inb_S8x64x64_S1x64x64_6_0_0),
    Tiles.readCov_whole _ _ _ (Tiles.tile 5 inb_S8x64x64_S1x64x64_5_0_0),
    Tiles.readCov_whole _ _ _ (Tiles.tile 4 inb_S8x64x64_S1x64x64_4_0_0),
    Tiles.readCov_whole _ _ _ (Tiles.tile 3 inb_S8x64x64_S1x64x64_3_0_0),
    Tiles.readCov_whole _ _ _ (Tiles.tile 2 inb_S8x64x64_S1x64x64_2_0_0),
    Tiles.readCov_whole _ _ _ (Tiles.tile 1 inb_S8x64x64_S1x64x64_1_0_0),
    Tiles.readCov_whole _ _ _ (Tiles.tile 0 inb_S8x64x64_S1x64x64_0_0_0)]
  exact Tiles.canon_tiles (Val := Elt F) (upd x0 x1 (k0_pay3 (F := F))) _ _ _ _ _ _ _ _ (pay4_eq _ _ _) (pay6_eq _ _ _) (pay7_eq _ _ _)
    (pay9_eq _ _ _) (pay10_eq _ _ _) (pay13_eq _ _ _) (pay14_eq _ _ _) (pay1_eq _ _ _) _ _ _ _ _ _ _ _ _ y

/-- A LAST POINT of a batch: the tile-by-tile update of the block it found, then the row softmax of the whole block. -/
theorem out_C_tiles (hc0 : ¬cond0_0 i) (hc1 : cond0_1 i) (x0 x1 : Vec F S1x256x8x8x64 .f32) (xo2 : Vec F S8x64x64 .f32) :
    out0_C_2 c i a2 h2 a3 h3 a4 h4 hc0 hc1 x0 x1 xo2
      = k0_pay2 (fun y : S8x64x64.Idx => upd x0 x1 xo2 (y 0) (ix3 (0 : Fin 1) (y 1) (y 2))) := by
  unfold out0_C_2
  rw [View.read_writes_junk_eq_canon]
  unfold kernelRun0_C
  dsimp only
  sl_unfold_words
  simp only [View.readAt_eq_ld, h2.read_unread, h3.read_unread, h4.read_unread]
  refine (View.canon_cons_unit_zero Tiles.hz3 _ _ _).trans ?_
  refine congrArg k0_pay2 ?_
  refine (Tiles.readCov_all _ _ _).trans ?_
  funext y
  exact Tiles.canon_tiles (Val := Elt F) (upd x0 x1 xo2) _ _ _ _ _ _ _ _ (pay4_eq _ _ _) (pay6_eq _ _ _) (pay7_eq _ _ _) (pay9_eq _ _ _)
    (pay10_eq _ _ _) (pay13_eq _ _ _) (pay14_eq _ _ _) (pay1_eq _ _ _) _ _ _ _ _ _ _ _ [] y

/-! ## The three cases at an index, over the extended reals -/

theorem out_A_apply (hc0 : cond0_0 i) (hc1 : ¬cond0_1 i) (x0 x1 : Vec Ideal S1x256x8x8x64 .f32) (a : Fin 8) (p q : Fin 64) :
    out0_A_2 (F := Ideal) c i a2 h2 a3 h3 a4 h4 hc0 hc1 x0 x1 (ix3 a p q) = 0 + contrib x0 x1 a p q := by
  rw [out_A_tiles]
  show upd (F := Ideal) x0 x1 (k0_pay3 (F := Ideal)) a (ix3 (0 : Fin 1) p q) = _
  rw [upd_apply, zero_apply]

theorem out_B_apply (hc0 : ¬cond0_0 i) (hc1 : ¬cond0_1 i) (x0 x1 : Vec Ideal S1x256x8x8x64 .f32) (xo2 : Vec Ideal S8x64x64 .f32)
    (a : Fin 8) (p q : Fin 64) :
    out0_B_2 (F := Ideal) c i a2 h2 a3 h3 a4 h4 hc0 hc1 x0 x1 xo2 (ix3 a p q) = xo2 (ix3 a p q) + contrib x0 x1 a p q := by
  rw [out_B_tiles]
  show upd (F := Ideal) x0 x1 xo2 a (ix3 (0 : Fin 1) p q) = _
  rw [upd_apply]

theorem out_C_apply (hc0 : ¬cond0_0 i) (hc1 : cond0_1 i) (x0 x1 : Vec Ideal S1x256x8x8x64 .f32) (xo2 : Vec Ideal S8x64x64 .f32)
    (a : Fin 8) (p q : Fin 64) :
    out0_C_2 (F := Ideal) c i a2 h2 a3 h3 a4 h4 hc0 hc1 x0 x1 xo2 (ix3 a p q)
      = Cert.Attn.soft (fun l => (xo2 (ix3 a p l) + contrib x0 x1 a p l) * Ideal.ofBits .f32 0x3E000000#32) q := by
  rw [out_C_tiles, pay2_apply]
  refine congrArg (Cert.Attn.soft · q) (funext fun l => congrArg (· * Ideal.ofBits .f32 0x3E000000#32) ?_)
  show upd (F := Ideal) x0 x1 xo2 a (ix3 (0 : Fin 1) p l) = _
  rw [upd_apply]

end Cert.KernelIdeal.Body

end
-- ==== Proof.Reindex.lean ====
/-
  Re-indexing of finite sums.

  A number `k < m·n` is `k = (k / n)·n + k % n` with `k / n < m` and `k % n < n`, and `k ↦ (k / n, k % n)` is a
  bijection of `Fin (m·n)` with `Fin m × Fin n`.  Hence a sum over `k < m·n` of a function of `(k / n, k % n)` is the
  double sum over the pairs.  The two statements below are the instances `16384 = 8 · 2048` (a position of the flattened
  sequence is `2048·h + u`) and `2048 = 256 · 8 = 8 · 256` (a row `r < 2048` of the chunk `c < 8` is `r = 8·a + h` with
  `a < 256`, and `u = 256·c + a`).
-/
import Mathlib.Algebra.BigOperators.Fin
import Mathlib.Logic.Equiv.Fin.Basic

open scoped BigOperators

namespace Cert.Attn

variable {M : Type*} [AddCommMonoid M]

/-- A sum over `k < m·n` of a function of the quotient `k / n` and the remainder `k % n` is the double sum. -/
theorem sum_div_mod (m n : ℕ) (g : Fin m → Fin n → M) :
    ∑ k : Fin (m * n), g k.divNat k.modNat = ∑ a : Fin m, ∑ b : Fin n, g a b := by
  rw [← Fintype.sum_prod_type']
  exact Fintype.sum_equiv finProdFinEquiv.symm _ _ (fun _ => rfl)

/-- The flattened sequence: `k < 16384` is `k = 2048·h + u`; summing over `k` is summing over `u` and `h`. -/
theorem sum_seq (f : Fin 2048 → Fin 8 → M) :
    ∑ k : Fin 16384, f ⟨k.val % 2048, Nat.mod_lt _ (by decide)⟩
        ⟨k.val / 2048, by have := k.isLt; omega⟩
      = ∑ u : Fin 2048, ∑ h : Fin 8, f u h := by
  rw [Finset.sum_comm]
  exact sum_div_mod 8 2048 (fun h u => f u h)

/-- The chunks: row `r < 2048` of chunk `c < 8` is `r = 8·a + h`, and it carries `u = 256·c + a` and `h`;
    summing over `c` and `r` is summing over `u` and `h`. -/
theorem sum_chunks (f : Fin 2048 → Fin 8 → M) :
    ∑ c : Fin 8, ∑ r : Fin 2048, f ⟨c.val * 256 + r.val / 8, by have := c.isLt; have := r.isLt; omega⟩
        ⟨r.val % 8, Nat.mod_lt _ (by decide)⟩
      = ∑ u : Fin 2048, ∑ h : Fin 8, f u h := by
  -- the inner sum over `r = 8·a + h` is the double sum over `a < 256` and `h < 8`
  have h1 : ∀ c : Fin 8,
      ∑ r : Fin 2048, f ⟨c.val * 256 + r.val / 8, by have := c.isLt; have := r.isLt; omega⟩
          ⟨r.val % 8, Nat.mod_lt _ (by decide)⟩
        = ∑ a : Fin 256, ∑ h : Fin 8,
            f ⟨c.val * 256 + a.val, by have := c.isLt; have := a.isLt; omega⟩ h :=
    fun c => sum_div_mod 256 8
      (fun a h => f ⟨c.val * 256 + a.val, by have := c.isLt; have := a.isLt; omega⟩ h)
  rw [Fintype.sum_congr _ _ h1]
  -- the sum over `u = 256·c + a` is the double sum over `c < 8` and `a < 256`
  have h2 := sum_div_mod 8 256
    (fun c a => ∑ h : Fin 8, f ⟨c.val * 256 + a.val, by have := c.isLt; have := a.isLt; omega⟩ h)
  rw [← h2]
  refine Fintype.sum_congr _ _ (fun u => ?_)
  have hu : (⟨(Fin.divNat (m := 8) (n := 256) u).val * 256 + (Fin.modNat (m := 8) (n := 256) u).val,
      by have := (Fin.divNat (m := 8) (n := 256) u).isLt
         have := (Fin.modNat (m := 8) (n := 256) u).isLt; omega⟩ : Fin 2048) = u :=
    Fin.ext (Nat.div_add_mod' u.val 256)
  rw [hu]

end Cert.Attn
-- ==== Proof.Accum.lean ====
/-
  What the accumulator block holds after every grid point, by induction on the point.

  Point `n` is batch `n / 8`, chunk `n % 8`. Writing `addend n` for the point's addend (Cases.lean's `contrib` of its
  two blocks), after a point that is not the last of its batch the block holds the PARTIAL SCORE

      partialScore n = ∑ over k ≤ n % 8 of addend (n - n % 8 + k)

  (the first point of a batch starts from zero), and after the last point of a batch, `n % 8 = 7`, the row softmax of
  the full score scaled by 1/8. The eight chunks' addends of a batch, read in the argument arrays, are the score of
  the specification: the eight chunks of 256 positions make up the 2048 positions `u`, and a chunk's row `r` is
  position `r / 8` of the chunk and head `r % 8`.
-/
import proofs.«157863_j53300544143372_2_alg».proof.Proof.Gen.KernelIdeal.Frame
import proofs.«157863_j53300544143372_2_alg».proof.Proof.Cases
import proofs.«157863_j53300544143372_2_alg».proof.Proof.Blocks
import proofs.«157863_j53300544143372_2_alg».proof.Proof.Spec
import proofs.«157863_j53300544143372_2_alg».proof.Proof.Reindex

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The addend of point number `p` (zero past the grid). -/
def addend (c : Dev nD) (p : ℕ) (a : Fin 8) (i j : Fin 64) : EReal :=
  if hp : p < cfg0.N then contrib (iblk m c 0 ⟨p, hp⟩) (iblk m c 1 ⟨p, hp⟩) a i j else 0

/-- The score accumulated over the batch's chunks up to point `n`. -/
def partialScore (c : Dev nD) (n : ℕ) (a : Fin 8) (i j : Fin 64) : EReal :=
  ∑ k ∈ Finset.range (n % 8 + 1), addend m c (n - n % 8 + k) a i j

/-- At a batch's first point the partial score is that point's addend. -/
theorem partialScore_first (c : Dev nD) (n : ℕ) (h0 : n % 8 = 0) (a : Fin 8) (i j : Fin 64) :
    partialScore m c n a i j = addend m c n a i j := by
  unfold partialScore
  rw [h0, Finset.sum_range_one]
  rfl

/-- At a later point it is the previous point's plus the point's addend. -/
theorem partialScore_succ (c : Dev nD) (n : ℕ) (h0 : ¬(n + 1) % 8 = 0) (a : Fin 8) (i j : Fin 64) :
    partialScore m c (n + 1) a i j = partialScore m c n a i j + addend m c (n + 1) a i j := by
  unfold partialScore
  have e1 : (n + 1) % 8 = n % 8 + 1 := by omega
  have e2 : n + 1 - (n % 8 + 1) = n - n % 8 := by omega
  have e3 : n - n % 8 + (n % 8 + 1) = n + 1 := by omega
  rw [e1, e2, Finset.sum_range_succ, e3]

/-- THE INVARIANT: after a point that is not the last of its batch the block holds the partial score; after the last,
    the row softmax of the scaled full score. -/
theorem outs_inv (c : Dev nD) : ∀ (n : ℕ) (h : n < cfg0.N),
    (n % 8 ≠ 7 → ∀ (a : Fin 8) (p q : Fin 64), outsAt0 m c n h (ix3 a p q) = partialScore m c n a p q)
    ∧ (n % 8 = 7 → ∀ (a : Fin 8) (p q : Fin 64),
        outsAt0 m c n h (ix3 a p q) = Cert.Attn.soft (fun l => partialScore m c n a p l * Ideal.ofBits FTy.f32 0x3E000000#32) q)
  | 0, h => by
    refine ⟨fun _ a p q => ?_, fun h7 => absurd h7 (by decide)⟩
    have e := outsAt0_A m c ⟨0, h⟩ rfl (fun h7 => absurd h7 (by decide : ¬(0 % 8 = 7)))
    rw [show outsAt0 m c 0 h = _ from e, out_A_apply, partialScore_first m c 0 rfl, zero_add]
    unfold addend
    rw [dif_pos h]
  | n + 1, h => by
    have hN : cfg0.N = 16 := N_0
    have ih := outs_inv c n (Nat.lt_of_succ_lt h)
    by_cases h0 : (n + 1) % 8 = 0
    · have h1 : ¬(n + 1) % 8 = 7 := by omega
      refine ⟨fun _ a p q => ?_, fun h7 => absurd h7 h1⟩
      have e := outsAt0_A m c ⟨n + 1, h⟩ h0 h1
      rw [show outsAt0 m c (n + 1) h = _ from e, out_A_apply, partialScore_first m c (n + 1) h0, zero_add]
      unfold addend
      rw [dif_pos h]
    · have hn7 : n % 8 ≠ 7 := by omega
      have hadd : ∀ (a : Fin 8) (p l : Fin 64),
          outsAt0 m c n (Nat.lt_of_succ_lt h) (ix3 a p l) + contrib (iblk m c 0 ⟨n + 1, h⟩) (iblk m c 1 ⟨n + 1, h⟩) a p l
            = partialScore m c (n + 1) a p l := fun a p l => by
        rw [ih.1 hn7 a p l, partialScore_succ m c n h0]
        unfold addend
        rw [dif_pos h]
      by_cases h1 : (n + 1) % 8 = 7
      · refine ⟨fun h7 => absurd h1 h7, fun _ a p q => ?_⟩
        have e := outsAt0_C m c ⟨n + 1, h⟩ h0 h1
        rw [show outsAt0 m c (n + 1) h = _ from e, out_C_apply]
        exact congrArg (Cert.Attn.soft · q) (funext fun l => congrArg (· * Ideal.ofBits FTy.f32 0x3E000000#32) (hadd a p l))
      · refine ⟨fun _ a p q => ?_, fun h7 => absurd h7 h1⟩
        have e := outsAt0_B m c ⟨n + 1, h⟩ h0 h1
        rw [show outsAt0 m c (n + 1) h = _ from e, out_B_apply]
        exact hadd a p q

end Cert.KernelIdeal.Body

end
-- ==== Proof.LastScore.lean ====
/-
  The eight chunk addends of a batch are the specification's score.

  Grid point `t = 8·b + k` stages, of each argument, the positions `8·u + v` with `u = 256·k + a`, `a < 256`, of batch
  `b`, every residue `v`, head and feature. A chunk's addend for residue `a` and features `i`, `j` sums, over the rows
  `r < 2048` of the chunk written `r = 8·a' + h`, the products of the two blocks at `(a', a, h, i)` and `(a', a, h, j)`:
  read in the argument arrays it is the sum over `a' < 256` and the heads `h` of the products at position
  `8·(256·k + a') + a`. Summed over the eight chunks `k`, `u = 256·k + a'` runs over all of `u < 2048`: the score.
-/
import proofs.«157863_j53300544143372_2_alg».proof.Proof.Blocks
import proofs.«157863_j53300544143372_2_alg».proof.Proof.Spec
import proofs.«157863_j53300544143372_2_alg».proof.Proof.Reindex
import Idealize.ShloMosaic.Lib.ValueIdx

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A chunk's addend for residue `a` and features `i`, `j`: over the chunk's rows `r = 8·a' + h`, the products of the two
    blocks at `(a', a, h, i)` and `(a', a, h, j)`. -/
def chunkSum (x0 x1 : Vec Ideal S1x256x8x8x64 .f32) (a : Fin 8) (i j : Fin 64) : EReal :=
  ∑ r : Fin 2048, x0 (ix5 (0 : Fin 1) (⟨r.val / 8, by have := r.isLt; omega⟩ : Fin 256) a (⟨r.val % 8, Nat.mod_lt _ (by decide)⟩ : Fin 8) i)
    * x1 (ix5 (0 : Fin 1) (⟨r.val / 8, by have := r.isLt; omega⟩ : Fin 256) a (⟨r.val % 8, Nat.mod_lt _ (by decide)⟩ : Fin 8) j)

/-- The first block at point `t = 8·b + k`: batch `b`, positions `8·(256·k + a') + v`. -/
theorem iblk0_at (c : Dev nD) (t : Fin cfg0.N) (b : Fin 2) (k : Fin 8) (ht : t.val = b.val * 8 + k.val)
    (a' : Fin 256) (v h : Fin 8) (i : Fin 64) :
    (iblk m c 0 t : Vec Ideal S1x256x8x8x64 .f32) (ix5 (0 : Fin 1) a' v h i)
      = m ((c : Thread nD τ).loc main_arg0)
          (ix4 b (Cert.Attn.pos (⟨k.val * 256 + a'.val, by have := k.isLt; have := a'.isLt; omega⟩ : Fin 2048) v) h i) := by
  have hk : k.val < 8 := k.isLt
  have hb : b.val < 2 := b.isLt
  have ha : a'.val < 256 := a'.isLt
  rw [iblk0_apply]
  have e1 : (⟨t.val / 8, by omega⟩ : Fin 2) = b := Fin.ext (by show t.val / 8 = b.val; omega)
  have e2 : (⟨t.val % 8 * 256 + a'.val, by omega⟩ : Fin 2048) = ⟨k.val * 256 + a'.val, by omega⟩ :=
    Fin.ext (by show t.val % 8 * 256 + a'.val = k.val * 256 + a'.val; omega)
  rw [e1, e2]

/-- The second block likewise. -/
theorem iblk1_at (c : Dev nD) (t : Fin cfg0.N) (b : Fin 2) (k : Fin 8) (ht : t.val = b.val * 8 + k.val)
    (a' : Fin 256) (v h : Fin 8) (i : Fin 64) :
    (iblk m c 1 t : Vec Ideal S1x256x8x8x64 .f32) (ix5 (0 : Fin 1) a' v h i)
      = m ((c : Thread nD τ).loc main_arg1)
          (ix4 b (Cert.Attn.pos (⟨k.val * 256 + a'.val, by have := k.isLt; have := a'.isLt; omega⟩ : Fin 2048) v) h i) := by
  have hk : k.val < 8 := k.isLt
  have hb : b.val < 2 := b.isLt
  have ha : a'.val < 256 := a'.isLt
  rw [iblk1_apply]
  have e1 : (⟨t.val / 8, by omega⟩ : Fin 2) = b := Fin.ext (by show t.val / 8 = b.val; omega)
  have e2 : (⟨t.val % 8 * 256 + a'.val, by omega⟩ : Fin 2048) = ⟨k.val * 256 + a'.val, by omega⟩ :=
    Fin.ext (by show t.val % 8 * 256 + a'.val = k.val * 256 + a'.val; omega)
  rw [e1, e2]

/-- The arithmetic alone: if the two blocks of chunk `k` read, at `(a', v, h, i)`, the arrays `x0`, `x1` at batch `b`,
    position `8·(256·k + a') + v`, head `h`, feature `i`, then the eight chunk addends sum to the score of `x0`, `x1`. -/
theorem chunks_score_of (X0 X1 : Fin 8 → Vec Ideal S1x256x8x8x64 .f32) (x0 x1 : Cert.Attn.Arg) (b : Fin 2)
    (h0 : ∀ (k : Fin 8) (a' : Fin 256) (v h : Fin 8) (i : Fin 64), X0 k (ix5 (0 : Fin 1) a' v h i)
      = x0 (ix4 b (Cert.Attn.pos (⟨k.val * 256 + a'.val, by have := k.isLt; have := a'.isLt; omega⟩ : Fin 2048) v) h i))
    (h1 : ∀ (k : Fin 8) (a' : Fin 256) (v h : Fin 8) (i : Fin 64), X1 k (ix5 (0 : Fin 1) a' v h i)
      = x1 (ix4 b (Cert.Attn.pos (⟨k.val * 256 + a'.val, by have := k.isLt; have := a'.isLt; omega⟩ : Fin 2048) v) h i))
    (a : Fin 8) (i j : Fin 64) :
    ∑ k : Fin 8, chunkSum (X0 k) (X1 k) a i j = Cert.Attn.score x0 x1 b a i j := by
  have hsum : ∀ k : Fin 8, chunkSum (X0 k) (X1 k) a i j
      = ∑ r : Fin 2048,
          x0 (ix4 b (Cert.Attn.pos (⟨k.val * 256 + r.val / 8, by have := k.isLt; have := r.isLt; omega⟩ : Fin 2048) a)
                (⟨r.val % 8, Nat.mod_lt _ (by decide)⟩ : Fin 8) i)
            * x1 (ix4 b (Cert.Attn.pos (⟨k.val * 256 + r.val / 8, by have := k.isLt; have := r.isLt; omega⟩ : Fin 2048) a)
                (⟨r.val % 8, Nat.mod_lt _ (by decide)⟩ : Fin 8) j) := fun k => by
    unfold chunkSum
    refine Finset.sum_congr rfl fun r _ => ?_
    rw [h0, h1]
  rw [Fintype.sum_congr _ _ hsum]
  exact Cert.Attn.sum_chunks (fun u h => x0 (ix4 b (Cert.Attn.pos u a) h i) * x1 (ix4 b (Cert.Attn.pos u a) h j))

/-- The eight chunk addends of batch `b`, read in the argument arrays, sum to the score. -/
theorem chunks_score (c : Dev nD) (b : Fin 2) (pt : Fin 8 → Fin cfg0.N) (hpt : ∀ k : Fin 8, (pt k).val = b.val * 8 + k.val)
    (a : Fin 8) (i j : Fin 64) :
    ∑ k : Fin 8, chunkSum (iblk m c 0 (pt k)) (iblk m c 1 (pt k)) a i j
      = Cert.Attn.score (m ((c : Thread nD τ).loc main_arg0)) (m ((c : Thread nD τ).loc main_arg1)) b a i j :=
  chunks_score_of (fun k => iblk m c 0 (pt k)) (fun k => iblk m c 1 (pt k))
    (m ((c : Thread nD τ).loc main_arg0)) (m ((c : Thread nD τ).loc main_arg1)) b
    (fun k => iblk0_at m c (pt k) b k (hpt k)) (fun k => iblk1_at m c (pt k) b k (hpt k)) a i j

end Cert.KernelIdeal.Body

end
-- ==== Proof.Last.lean ====
/-
  After the last point of a batch the accumulator block holds the specification's softmax.

  The partial score at a last point is the sum of the batch's eight chunk addends; read in the argument arrays those are
  the specification's score (the eight chunks of 256 positions are the 2048 positions), so the block holds `probs`.
-/
import proofs.«157863_j53300544143372_2_alg».proof.Proof.Accum
import proofs.«157863_j53300544143372_2_alg».proof.Proof.LastScore

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The full score: at a batch's last point the partial score is the specification's score of the batch. -/
theorem partialScore_last (c : Dev nD) (t : Fin cfg0.N) (ht : t.val % 8 = 7) (a : Fin 8) (p l : Fin 64) :
    partialScore m c t.val a p l
      = Cert.Attn.score (m ((c : Thread nD τ).loc main_arg0)) (m ((c : Thread nD τ).loc main_arg1))
          ⟨t.val / 8, by have := t.isLt; have : cfg0.N = 16 := N_0; omega⟩ a p l := by
  have hN : cfg0.N = 16 := N_0
  have hlt := t.isLt
  rw [← chunks_score m c ⟨t.val / 8, by omega⟩ (fun k => ⟨t.val - 7 + k.val, by have := k.isLt; omega⟩)
    (fun k => by show t.val - 7 + k.val = t.val / 8 * 8 + k.val; omega) a p l]
  unfold partialScore
  rw [ht, Finset.sum_range]
  refine Finset.sum_congr rfl fun k _ => ?_
  unfold addend
  rw [dif_pos (show t.val - 7 + k.val < cfg0.N by have := k.isLt; omega)]
  rfl

/-- THE LAST POINT of a batch leaves the specification's softmax rows in the block. -/
theorem lastPoint (c : Dev nD) (t : Fin cfg0.N) (ht : t.val % 8 = 7) (a : Fin 8) (p q : Fin 64) :
    outsAt0 m c t.val t.isLt (ix3 a p q)
      = Cert.Attn.probs (m ((c : Thread nD τ).loc main_arg0)) (m ((c : Thread nD τ).loc main_arg1))
          ⟨t.val / 8, by have := t.isLt; have : cfg0.N = 16 := N_0; omega⟩ a p q := by
  rw [(outs_inv m c t.val t.isLt).2 ht a p q]
  unfold Cert.Attn.probs
  exact congrArg (Cert.Attn.soft · q)
    (funext fun l => congrArg (· * Ideal.ofBits FTy.f32 0x3E000000#32) (partialScore_last m c t ht a p l))

end Cert.KernelIdeal.Body

end
-- ==== Proof.RefValue.lean ====
/-
  The reference program computes the specification.

  The reference flattens each argument `(batch, position, head, feature)` of extents (2, 16384, 8, 64) by a chain of
  transposes and reshapes into an array of extents (16, 16384, 64), contracts the two arrays over the middle axis, scales by
  `1/8`, and takes a softmax along the last axis.

  Reading the chain at coordinates: the flattened array at `(b', k, i)` is the argument at
  `(b' / 8, 8·(k % 2048) + b' % 8, k / 2048, i)`. So the contraction over `k < 16384` at row block `b' = 8·b + v` runs, with
  `u = k % 2048` and `h = k / 2048`, over the positions `8·u + v` and the heads `h`: it is the specification's score. The
  maximum along the last axis is a fold of `max` from `-∞` over that axis's coordinates (the extra `max (-∞) ·` the program
  applies changes nothing), the sum of the exponentials starts from `0`, and the quotient is the softmax row.
-/
import proofs.«157863_j53300544143372_2_alg».proof.Proof.Gen.ReferenceIdeal.Read
import proofs.«157863_j53300544143372_2_alg».proof.Proof.Spec
import proofs.«157863_j53300544143372_2_alg».proof.Proof.Reindex
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-- An argument of the reference: definitionally `Cert.Attn.Arg`. -/
abbrev RArg : Type := (⟨S2x16384x8x64, .f32⟩ : BufTy).Contents (Elt Ideal)

/-! ## The layout chain, one operation at a time, read at coordinates

Each reshape keeps the row-major position: the source coordinates are the quotients and remainders of the target's
position by the source's strides. -/

/-- `(16, 16384, 64) ← (2, 8, 16384, 64)`: the row block `b'` splits as `(b' / 8, b' % 8)`. -/
theorem idx_v4_ix (b' : Fin 16) (k : Fin 16384) (i : Fin 64) :
    idx_main_v4 (ix3 b' k i) =
      ix4 (⟨b'.val / 8, by have := b'.isLt; omega⟩ : Fin 2) (⟨b'.val % 8, Nat.mod_lt _ (by decide)⟩ : Fin 8) k i := by
  funext a
  apply Fin.ext
  have hb := b'.isLt; have hk := k.isLt; have hi := i.isLt
  match a with
  | ⟨0, _⟩ => show ((b'.val * 16384 + k.val) * 64 + i.val) / 8388608 = b'.val / 8; omega
  | ⟨1, _⟩ => show ((b'.val * 16384 + k.val) * 64 + i.val) / 1048576 % 8 = b'.val % 8; omega
  | ⟨2, _⟩ => show ((b'.val * 16384 + k.val) * 64 + i.val) / 64 % 16384 = k.val; omega
  | ⟨3, _⟩ => show ((b'.val * 16384 + k.val) * 64 + i.val) % 64 = i.val; omega

/-- The transpose `(2, 8, 16384, 64) ← (2, 16384, 8, 64)` swaps the two middle coordinates. -/
theorem idx_v3_ix (a : Fin 2) (h : Fin 8) (k : Fin 16384) (i : Fin 64) :
    idx_main_v3 (ix4 a h k i) = ix4 a k h i := by
  funext c
  apply Fin.ext
  match c with
  | ⟨0, _⟩ => rfl
  | ⟨1, _⟩ => rfl
  | ⟨2, _⟩ => rfl
  | ⟨3, _⟩ => rfl

/-- `(2, 16384, 8, 64) ← (2, 16384, 512)`: the last two coordinates `(h, i)` merge to `64·h + i`. -/
theorem idx_v2_ix (a : Fin 2) (k : Fin 16384) (h : Fin 8) (i : Fin 64) :
    idx_main_v2 (ix4 a k h i) =
      ix3 a k (⟨h.val * 64 + i.val, by have := h.isLt; have := i.isLt; omega⟩ : Fin 512) := by
  funext c
  apply Fin.ext
  have ha := a.isLt; have hk := k.isLt; have hh := h.isLt; have hi := i.isLt
  match c with
  | ⟨0, _⟩ => show (((a.val * 16384 + k.val) * 8 + h.val) * 64 + i.val) / 8388608 = a.val; omega
  | ⟨1, _⟩ => show (((a.val * 16384 + k.val) * 8 + h.val) * 64 + i.val) / 512 % 16384 = k.val; omega
  | ⟨2, _⟩ => show (((a.val * 16384 + k.val) * 8 + h.val) * 64 + i.val) % 512 = h.val * 64 + i.val; omega

/-- `(2, 16384, 512) ← (2, 8, 16384, 64)`: the position `512·k + d` of a batch splits by the strides `2^20`, `64`, `1`:
    head `k / 2048`, row `8·(k % 2048) + d / 64`, feature `d % 64`. -/
theorem idx_v1_ix (a : Fin 2) (k : Fin 16384) (d : Fin 512) :
    idx_main_v1 (ix3 a k d) =
      ix4 a (⟨k.val / 2048, by have := k.isLt; omega⟩ : Fin 8)
        (⟨k.val % 2048 * 8 + d.val / 64, by have := k.isLt; have := d.isLt; omega⟩ : Fin 16384)
        (⟨d.val % 64, Nat.mod_lt _ (by decide)⟩ : Fin 64) := by
  funext c
  apply Fin.ext
  have ha := a.isLt; have hk := k.isLt; have hd := d.isLt
  match c with
  | ⟨0, _⟩ => show ((a.val * 16384 + k.val) * 512 + d.val) / 8388608 = a.val; omega
  | ⟨1, _⟩ => show ((a.val * 16384 + k.val) * 512 + d.val) / 1048576 % 8 = k.val / 2048; omega
  | ⟨2, _⟩ => show ((a.val * 16384 + k.val) * 512 + d.val) / 64 % 16384 = k.val % 2048 * 8 + d.val / 64; omega
  | ⟨3, _⟩ => show ((a.val * 16384 + k.val) * 512 + d.val) % 64 = d.val % 64; omega

/-- The first transpose `(2, 8, 16384, 64) ← (2, 16384, 8, 64)` swaps the two middle coordinates. -/
theorem idx_v0_ix (a : Fin 2) (h : Fin 8) (p : Fin 16384) (i : Fin 64) :
    idx_main_v0 (ix4 a h p i) = ix4 a p h i := by
  funext c
  apply Fin.ext
  match c with
  | ⟨0, _⟩ => rfl
  | ⟨1, _⟩ => rfl
  | ⟨2, _⟩ => rfl
  | ⟨3, _⟩ => rfl

/-- The argument's index behind the flattened array's `(b', k, i)`: batch `b' / 8`, position `8·(k % 2048) + b' % 8`,
    head `k / 2048`, feature `i`. -/
abbrev src (b' : Fin 16) (k : Fin 16384) (i : Fin 64) : (⟨4, ![2, 16384, 8, 64]⟩ : Shape).Idx :=
  ix4 (⟨b'.val / 8, by have := b'.isLt; omega⟩ : Fin 2)
    (pos ⟨k.val % 2048, Nat.mod_lt _ (by decide)⟩ ⟨b'.val % 8, Nat.mod_lt _ (by decide)⟩)
    (⟨k.val / 2048, by have := k.isLt; omega⟩ : Fin 8) i

/-- The composite of the five index maps at `(b', k, i)` is `src b' k i`. -/
theorem idx_chain (b' : Fin 16) (k : Fin 16384) (i : Fin 64) :
    idx_main_v0 (idx_main_v1 (idx_main_v2 (idx_main_v3 (idx_main_v4 (ix3 b' k i))))) = src b' k i := by
  rw [idx_v4_ix, idx_v3_ix, idx_v2_ix, idx_v1_ix, idx_v0_ix]
  funext c
  apply Fin.ext
  have hb := b'.isLt; have hk := k.isLt; have hi := i.isLt
  match c with
  | ⟨0, _⟩ => rfl
  | ⟨1, _⟩ => show k.val % 2048 * 8 + (b'.val % 8 * 64 + i.val) / 64 = k.val % 2048 * 8 + b'.val % 8; omega
  | ⟨2, _⟩ => rfl
  | ⟨3, _⟩ => show (b'.val % 8 * 64 + i.val) % 64 = i.val; omega

/-- The first argument, flattened, at `(b', k, i)`. -/
theorem q_read (x0 : RArg) (b' : Fin 16) (k : Fin 16384) (i : Fin 64) :
    val_main_v4 (F := Ideal) x0 (ix3 b' k i) = x0 (src b' k i) := by
  rw [val_main_v4_apply, val_main_v3_apply, val_main_v2_apply, val_main_v1_apply, val_main_v0_apply, idx_chain]

/-- The second argument, flattened by the same chain, at `(b', k, j)`. -/
theorem k_read (x1 : RArg) (b' : Fin 16) (k : Fin 16384) (j : Fin 64) :
    val_main_v9 (F := Ideal) x1 (ix3 b' k j) = x1 (src b' k j) := by
  rw [val_main_v9_apply, val_main_v8_apply, val_main_v7_apply, val_main_v6_apply, val_main_v5_apply]
  exact congrArg x1 (idx_chain b' k j)

/-! ## The scores -/

/-- The batch and the residue of the row block `b' = 8·b + v`. -/
abbrev bat (b' : Fin 16) : Fin 2 := ⟨b'.val / 8, by have := b'.isLt; omega⟩
abbrev res (b' : Fin 16) : Fin 8 := ⟨b'.val % 8, Nat.mod_lt _ (by decide)⟩

/-- The contraction over the flattened sequence is the specification's score. -/
theorem score_read (x0 x1 : RArg) (b' : Fin 16) (i j : Fin 64) :
    val_main_v10 (F := Ideal) x0 x1 (ix3 b' i j) = score x0 x1 (bat b') (res b') i j := by
  rw [val_main_v10_apply]
  have hl : ∀ k : Fin 16384, lidx_main_v10 (ix3 b' i j) k = ix3 b' k i := fun k => funext fun c => by
    match c with
    | ⟨0, _⟩ => rfl
    | ⟨1, _⟩ => rfl
    | ⟨2, _⟩ => rfl
  have hr : ∀ k : Fin 16384, ridx_main_v10 (ix3 b' i j) k = ix3 b' k j := fun k => funext fun c => by
    match c with
    | ⟨0, _⟩ => rfl
    | ⟨1, _⟩ => rfl
    | ⟨2, _⟩ => rfl
  simp only [hl, hr, q_read, k_read]
  exact sum_seq (fun u h => x0 (ix4 (bat b') (pos u (res b')) h i) * x1 (ix4 (bat b') (pos u (res b')) h j))

/-- The scaled score row `l ↦ score · 1/8` of row block `b'` and feature `i`. -/
abbrev scaled (x0 x1 : RArg) (b' : Fin 16) (i : Fin 64) : Fin 64 → EReal :=
  fun l => score x0 x1 (bat b') (res b') i l * Ideal.ofBits .f32 0x3E000000#32

theorem scaled_read (x0 x1 : RArg) (b' : Fin 16) (i j : Fin 64) :
    val_main_v12 (F := Ideal) x0 x1 (ix3 b' i j) = scaled x0 x1 b' i j := by
  rw [val_main_v12_apply, val_main_v11_apply, val_main_cst_apply, score_read]
  rfl

/-! ## The row maximum -/

/-- The word `0xFF800000` is `-∞`. -/
theorem ofBits_neg_inf : Ideal.ofBits .f32 0xFF800000#32 = ⊥ := by
  simp [Ideal.ofBits, Ideal.ieee]

/-- The maximum along the last axis, at `(b', i)`, is the fold of `max` from `-∞` over the scaled row. -/
theorem rowmax_read (x0 x1 : RArg) (b' : Fin 16) (i : Fin 64) :
    val_main_v13 (F := Ideal) x0 x1 (ix2 b' i) = rowMax (scaled x0 x1 b' i) := by
  have h : S16x64x64.Reduces [2] S16x64 := by decide
  unfold val_main_v13
  rw [Host.reduce_eq_fold_single (FloatOps.maximumf (F := Ideal) (φ := .f32)) (val_main_v12 (F := Ideal) x0 x1)
    (val_main_cst_0 (F := Ideal)) _ h _ (ix2 b' i)]
  have hf : (val_main_v12 (F := Ideal) x0 x1 ∘ h.lift (ix2 b' i)) = scaled x0 x1 b' i := funext fun (l : Fin 64) => by
    have hlift : h.lift (ix2 b' i) l = ix3 b' i l := funext fun c => Fin.ext (by
      match c with
      | ⟨0, _⟩ => rfl
      | ⟨1, _⟩ => rfl
      | ⟨2, _⟩ => rfl)
    show val_main_v12 (F := Ideal) x0 x1 (h.lift (ix2 b' i) l) = _
    rw [hlift, scaled_read]
  rw [hf]
  rfl

/-- Taking the maximum with `-∞` once more changes nothing. -/
theorem max_read (x0 x1 : RArg) (b' : Fin 16) (i : Fin 64) :
    val_main_v15 (F := Ideal) x0 x1 (ix2 b' i) = rowMax (scaled x0 x1 b' i) := by
  rw [val_main_v15_apply, val_main_v14_apply, val_main_cst_1_apply, rowmax_read]
  show max (Ideal.ofBits .f32 0xFF800000#32) _ = _
  rw [ofBits_neg_inf, max_bot_left]

/-- The two broadcasts read the row's value: the index behind `(b', i, j)` is `(b', i)`. -/
theorem idx_bcast (b' : Fin 16) (i j : Fin 64) : idx_main_v16 (idx_main_v17 (ix3 b' i j)) = ix2 b' i := by
  funext c
  match c with
  | ⟨0, _⟩ => rfl
  | ⟨1, _⟩ => rfl

/-! ## The softmax row -/

/-- The exponential of the scaled score less the row's maximum. -/
theorem exp_read (x0 x1 : RArg) (b' : Fin 16) (i j : Fin 64) :
    val_main_v19 (F := Ideal) x0 x1 (ix3 b' i j)
      = Ideal.exp (scaled x0 x1 b' i j - rowMax (scaled x0 x1 b' i)) := by
  rw [val_main_v19_apply, val_main_v18_apply, scaled_read, val_main_v17_apply, val_main_v16_apply, idx_bcast, max_read]
  rfl

/-- The sum of the exponentials along the row, from `0`. -/
theorem denom_read (x0 x1 : RArg) (b' : Fin 16) (i j : Fin 64) :
    val_main_v22 (F := Ideal) x0 x1 (ix3 b' i j)
      = ∑ l : Fin 64, Ideal.exp (scaled x0 x1 b' i l - rowMax (scaled x0 x1 b' i)) := by
  have hb : idx_main_v21 (idx_main_v22 (ix3 b' i j)) = ix2 b' i := idx_bcast b' i j
  have hk : ∀ l : Fin 64, idx_main_v20 (ix2 b' i) l = ix3 b' i l := fun l => funext fun c => by
    match c with
    | ⟨0, _⟩ => rfl
    | ⟨1, _⟩ => rfl
    | ⟨2, _⟩ => rfl
  rw [val_main_v22_apply, val_main_v21_apply, hb, val_main_v20_apply, val_main_cst_2_apply]
  simp only [hk, exp_read]
  show Ideal.ofBits .f32 0x00000000#32 + _ = _
  rw [Ideal.ofBits_zero_f32, zero_add]

/-- The reference's result is the specification's. -/
theorem ref_eq (x0 x1 : (⟨Cert.ReferenceIdeal.S2x16384x8x64, .f32⟩ : BufTy).Contents (Elt Ideal)) :
    Cert.ReferenceIdeal.Read.val_main_v23 (F := Ideal) x0 x1 = Cert.Attn.result x0 x1 := by
  funext y
  obtain ⟨b', i, j, rfl⟩ : ∃ b' i j, y = ix3 b' i j := ⟨y 0, y 1, y 2, eq_ix3 y⟩
  rw [val_main_v23_apply, exp_read, denom_read]
  rfl

end Cert.ReferenceIdeal.RefValue

end
-- ==== Proof.lean ====
/-
  The kernel — a Pallas attention-score kernel: for each batch `b` and each residue `v` of the sequence position modulo 8
  it accumulates, over eight chunks of the 2048 positions `8u + v`, the 64 × 64 matrix of products of query and key features
  summed over positions and heads, and on the last chunk turns every row of the matrix scaled by 1/8 into a softmax row —
  against the jnp reference, which reaches the same sums by two transposes and reshapes of each argument and one
  contraction over 16384, then `jax.nn.softmax`.

  Over the extended reals both programs leave the array `Cert.Attn.result` of the two argument arrays (Proof/Spec.lean):
  * the kernel — each tile store is the old tile plus a sum over 2048 rows (Proof/Slab.lean); the block after a point, case
    by case (Proof/Tiles.lean, Proof/Cases.lean); the accumulation over a batch's eight points by induction on the point
    (Proof/Accum.lean); the blocks read in the argument arrays and the eight chunk sums re-indexed into the one sum over
    positions and heads (Proof/Blocks.lean, Proof/LastScore.lean, Proof/Reindex.lean, Proof/Last.lean); the last step is
    the row softmax (Proof/Softmax.lean); the two write-backs cover the result array (Proof/Final.lean);
  * the reference — its operations read one at a time at an index, the composed transposes and reshapes being the
    re-indexing `(b', s, i) ↦ (b' / 8, 8·(s % 2048) + b' % 8, s / 2048, i)` (Proof/RefValue.lean).
  Sums of extended reals commute and associate, so no finiteness of the inputs is used. The idealized kernel is the kernel's own
  text read over the extended reals, so the idealization claim is trivial; the three frames are the generated frame runs.
-/
import proofs.«157863_j53300544143372_2_alg».proof.Defs
import proofs.«157863_j53300544143372_2_alg».proof.Proof.Gen.Kernel
import proofs.«157863_j53300544143372_2_alg».proof.Proof.Gen.Kernel.Skeleton
import proofs.«157863_j53300544143372_2_alg».proof.Proof.Gen.Kernel.Launch
import proofs.«157863_j53300544143372_2_alg».proof.Proof.Gen.Kernel.Points
import proofs.«157863_j53300544143372_2_alg».proof.Proof.Gen.Kernel.Frame
import proofs.«157863_j53300544143372_2_alg».proof.Proof.Gen.KernelIdeal
import proofs.«157863_j53300544143372_2_alg».proof.Proof.Gen.KernelIdeal.Skeleton
import proofs.«157863_j53300544143372_2_alg».proof.Proof.Gen.KernelIdeal.Launch
import proofs.«157863_j53300544143372_2_alg».proof.Proof.Gen.KernelIdeal.Points
import proofs.«157863_j53300544143372_2_alg».proof.Proof.Gen.KernelIdeal.Frame
import proofs.«157863_j53300544143372_2_alg».proof.Proof.Gen.ReferenceIdeal
import proofs.«157863_j53300544143372_2_alg».proof.Proof.Gen.Pre_finite_inputs
import proofs.«157863_j53300544143372_2_alg».proof.Proof.Gen.KernelIdeal.Value
import proofs.«157863_j53300544143372_2_alg».proof.Proof.Gen.ReferenceIdeal.Run
import proofs.«157863_j53300544143372_2_alg».proof.Proof.Gen.ReferenceIdeal.Read
import proofs.«157863_j53300544143372_2_alg».proof.Proof.Final
import proofs.«157863_j53300544143372_2_alg».proof.Proof.Last
import proofs.«157863_j53300544143372_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were: the generated frame run. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array ends at `Cert.Attn.result` of its two arguments, and so does the
    reference's, of arguments that agree. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run m ρ (Cert.KernelIdeal.Body.lastPoint m), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.ref_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
